-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x57 : Shape := ⟨2, ![1000000, 57]⟩
abbrev S1000000x6 : Shape := ⟨2, ![1000000, 6]⟩
abbrev S_ : Shape := ⟨0, ![]⟩

class Facts : Prop where
  bcast_S_S1000000x57 : S_.BroadcastsInDim S1000000x57 (![] : Fin 0 → Fin S1000000x57.rank)
  reducesTo_S1000000x57_S_d0_1 : S1000000x57.ReducesTo [0, 1] S_
  h_S_ : 0 < S_.numel
  bcast_S_S1000000x6 : S_.BroadcastsInDim S1000000x6 (![] : Fin 0 → Fin S1000000x6.rank)
  reducesTo_S1000000x6_S_d0_1 : S1000000x6.ReducesTo [0, 1] S_

variable [Facts]

def fn {F : FTy → Type} [FloatOps F] (main_arg0 : FVec F S1000000x57 .f32) (main_arg1 : FVec F S1000000x6 .f32) : IVec S_ 1 :=
  let main_v0 : FVec F S1000000x57 .f32 := Host.absf main_arg0
  let main_cst : FVec F S_ .f32 := constant S_ .f32 0x7F800000#32
  let main_v1 : FVec F S1000000x57 .f32 := broadcastInDim S1000000x57 ![] bcast_S_S1000000x57 main_cst
  let main_v2 : IVec S1000000x57 1 := cmpf .olt main_v0 main_v1
  let main_c : IVec S_ 1 := constantI S_ 1 1#1
  let main_v3 : IVec S_ 1 := (fun x v => Host.reduce IntOp.andi x v reducesTo_S1000000x57_S_d0_1 h_S_) main_v2 main_c
  let main_v4 : FVec F S1000000x6 .f32 := Host.absf main_arg1
  let main_cst_0 : FVec F S_ .f32 := constant S_ .f32 0x7F800000#32
  let main_v5 : FVec F S1000000x6 .f32 := broadcastInDim S1000000x6 ![] bcast_S_S1000000x6 main_cst_0
  let main_v6 : IVec S1000000x6 1 := cmpf .olt main_v4 main_v5
  let main_c_1 : IVec S_ 1 := constantI S_ 1 1#1
  let main_v7 : IVec S_ 1 := (fun x v => Host.reduce IntOp.andi x v reducesTo_S1000000x6_S_d0_1 h_S_) main_v6 main_c_1
  let main_v8 : IVec S_ 1 := andi main_v3 main_v7
  main_v8
-- ==== Kernel.lean ====
abbrev S1000000x57 : Shape := ⟨2, ![1000000, 57]⟩
abbrev S1000000x6 : Shape := ⟨2, ![1000000, 6]⟩
abbrev S1000000x1 : Shape := ⟨2, ![1000000, 1]⟩
abbrev S4000x57 : Shape := ⟨2, ![4000, 57]⟩
abbrev S4000x6 : Shape := ⟨2, ![4000, 6]⟩
abbrev S4000x1 : Shape := ⟨2, ![4000, 1]⟩
abbrev S4000x32 : Shape := ⟨2, ![4000, 32]⟩
abbrev S4000 : Shape := ⟨1, ![4000]⟩
abbrev S4000x16 : Shape := ⟨2, ![4000, 16]⟩
abbrev S4000x8 : Shape := ⟨2, ![4000, 8]⟩
abbrev S4000x4 : Shape := ⟨2, ![4000, 4]⟩
abbrev S4000x2 : Shape := ⟨2, ![4000, 2]⟩

abbrev nBuf : Space → Nat
  | .hbm => 4
  | .vmem => 8
  | .smem => 0
  | _ => 0

abbrev bufTy : (tb : Table) → Fin (tcTables nBuf tb) → BufTy
  | .hbm, ⟨0, _⟩ => ⟨S1000000x57, .f32⟩
  | .hbm, ⟨1, _⟩ => ⟨S1000000x6, .f32⟩
  | .hbm, ⟨2, _⟩ => ⟨S1000000x57, .f32⟩
  | .hbm, ⟨3, _⟩ => ⟨S1000000x1, .f32⟩
  | .local _ .vmem, ⟨0, _⟩ => ⟨S4000x57, .f32⟩
  | .local _ .vmem, ⟨1, _⟩ => ⟨S4000x57, .f32⟩
  | .local _ .vmem, ⟨2, _⟩ => ⟨S4000x6, .f32⟩
  | .local _ .vmem, ⟨3, _⟩ => ⟨S4000x6, .f32⟩
  | .local _ .vmem, ⟨4, _⟩ => ⟨S4000x57, .f32⟩
  | .local _ .vmem, ⟨5, _⟩ => ⟨S4000x57, .f32⟩
  | .local _ .vmem, ⟨6, _⟩ => ⟨S4000x1, .f32⟩
  | .local _ .vmem, ⟨7, _⟩ => ⟨S4000x1, .f32⟩
  | _, _ => ⟨S1000000x57, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x57 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x57 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S4000x57_S4000x57_0_0 : ∀ a, (![0, 0] : Fin 2 → Nat) a + S4000x57.size a ≤ S4000x57.size a
  h_S4000x57 : 0 < S4000x57.numel
  inb_S4000x6_S4000x6_0_0 : ∀ a, (![0, 0] : Fin 2 → Nat) a + S4000x6.size a ≤ S4000x6.size a
  h_S4000x6 : 0 < S4000x6.numel
  slices_S4000x6_o0_0_S4000x1 : S4000x6.Slices ![0, 0] S4000x1
  slices_S4000x57_o0_25_S4000x32 : S4000x57.Slices ![0, 25] S4000x32
  reduces_S4000x32_S4000 : S4000x32.Reduces [1] S4000
  shapeCasts_S4000_S4000x1 : S4000.ShapeCasts S4000x1
  rotates_S4000x57_d1 : S4000x57.Rotates 1 none
  iota_S4000x57_d1_w32 : S4000x57.Iotas .tc 32 [1]
  broadcasts_S4000x1_S4000x57 : S4000x1.Broadcasts S4000x57
  slices_S4000x6_o0_1_S4000x1 : S4000x6.Slices ![0, 1] S4000x1
  slices_S4000x57_o0_41_S4000x16 : S4000x57.Slices ![0, 41] S4000x16
  reduces_S4000x16_S4000 : S4000x16.Reduces [1] S4000
  slices_S4000x6_o0_2_S4000x1 : S4000x6.Slices ![0, 2] S4000x1
  slices_S4000x57_o0_49_S4000x8 : S4000x57.Slices ![0, 49] S4000x8
  reduces_S4000x8_S4000 : S4000x8.Reduces [1] S4000
  slices_S4000x6_o0_3_S4000x1 : S4000x6.Slices ![0, 3] S4000x1
  slices_S4000x57_o0_53_S4000x4 : S4000x57.Slices ![0, 53] S4000x4
  reduces_S4000x4_S4000 : S4000x4.Reduces [1] S4000
  slices_S4000x6_o0_4_S4000x1 : S4000x6.Slices ![0, 4] S4000x1
  slices_S4000x57_o0_55_S4000x2 : S4000x57.Slices ![0, 55] S4000x2
  reduces_S4000x2_S4000 : S4000x2.Reduces [1] S4000
  slices_S4000x6_o0_5_S4000x1 : S4000x6.Slices ![0, 5] S4000x1
  slices_S4000x57_o0_56_S4000x1 : S4000x57.Slices ![0, 56] S4000x1
  reduces_S4000x1_S4000 : S4000x1.Reduces [1] S4000
  inb_S4000x1_S4000x1_0_0 : ∀ a, (![0, 0] : Fin 2 → Nat) a + S4000x1.size a ≤ S4000x1.size a
  h_S4000x1 : 0 < S4000x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x57.size a ≤ S1000000x57.size a
  hwx0_0 : ∀ i : grid0.Coords, EltTy.bits .f32 = 32 ∨ (Rect.block (s := S1000000x57) S4000x57.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x6.size a ≤ S1000000x6.size a
  hwx0_1 : ∀ i : grid0.Coords, EltTy.bits .f32 = 32 ∨ (Rect.block (s := S1000000x6) S4000x6.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x57.size a ≤ S1000000x57.size a
  hwx0_2 : ∀ i : grid0.Coords, EltTy.bits .f32 = 32 ∨ (Rect.block (s := S1000000x57) S4000x57.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1.size a ≤ S1000000x1.size a
  hwx0_3 : ∀ i : grid0.Coords, EltTy.bits .f32 = 32 ∨ (Rect.block (s := S1000000x1) S4000x1.size (cc0_transform_3 i) (hinb0_3 i)).WholeWords (EltTy.packing .f32)

variable [Facts₀]

abbrev win0_0 : Pipeline.Window sig grid0 :=
  Pipeline.Window.ofSpec (Memref.whole main_arg0) S4000x57.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S4000x57.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S4000x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1000000x57 : Shape := ⟨2, ![1000000, 57]⟩
abbrev S1000000x6 : Shape := ⟨2, ![1000000, 6]⟩
abbrev S1000000x1 : Shape := ⟨2, ![1000000, 1]⟩
abbrev S_ : Shape := ⟨0, ![]⟩
abbrev S1000000x32 : Shape := ⟨2, ![1000000, 32]⟩
abbrev S1000000 : Shape := ⟨1, ![1000000]⟩
abbrev S1000000x25 : Shape := ⟨2, ![1000000, 25]⟩
abbrev S1000000x16 : Shape := ⟨2, ![1000000, 16]⟩
abbrev S1000000x41 : Shape := ⟨2, ![1000000, 41]⟩
abbrev S1000000x8 : Shape := ⟨2, ![1000000, 8]⟩
abbrev S1000000x49 : Shape := ⟨2, ![1000000, 49]⟩
abbrev S1000000x4 : Shape := ⟨2, ![1000000, 4]⟩
abbrev S1000000x53 : Shape := ⟨2, ![1000000, 53]⟩
abbrev S1000000x2 : Shape := ⟨2, ![1000000, 2]⟩
abbrev S1000000x55 : Shape := ⟨2, ![1000000, 55]⟩
abbrev S1000000x56 : Shape := ⟨2, ![1000000, 56]⟩

abbrev nBuf : Space → Nat
  | .hbm => 119
  | .vmem => 0
  | .smem => 0
  | _ => 0

abbrev bufTy : (tb : Table) → Fin (tcTables nBuf tb) → BufTy
  | .hbm, ⟨0, _⟩ => ⟨S1000000x57, .f32⟩
  | .hbm, ⟨1, _⟩ => ⟨S1000000x6, .f32⟩
  | .hbm, ⟨2, _⟩ => ⟨S1000000x1, .f32⟩
  | .hbm, ⟨3, _⟩ => ⟨S_, .f32⟩
  | .hbm, ⟨4, _⟩ => ⟨S1000000x1, .f32⟩
  | .hbm, ⟨5, _⟩ => ⟨S1000000x1, .f32⟩
  | .hbm, ⟨6, _⟩ => ⟨S1000000x32, .f32⟩
  | .hbm, ⟨7, _⟩ => ⟨S_, .f32⟩
  | .hbm, ⟨8, _⟩ => ⟨S1000000, .f32⟩
  | .hbm, ⟨9, _⟩ => ⟨S1000000x1, .f32⟩
  | .hbm, ⟨10, _⟩ => ⟨S1000000x1, .f32⟩
  | .hbm, ⟨11, _⟩ => ⟨S1000000x1, .f32⟩
  | .hbm, ⟨12, _⟩ => ⟨S_, .f32⟩
  | .hbm, ⟨13, _⟩ => ⟨S1000000x32, .f32⟩
  | .hbm, ⟨14, _⟩ => ⟨S1000000x25, .f32⟩
  | .hbm, ⟨15, _⟩ => ⟨S1000000x57, .f32⟩
  | .hbm, ⟨16, _⟩ => ⟨S1000000x57, .f32⟩
  | .hbm, ⟨17, _⟩ => ⟨S1000000x57, .f32⟩
  | .hbm, ⟨18, _⟩ => ⟨S_, .f32⟩
  | .hbm, ⟨19, _⟩ => ⟨S1000000x1, .f32⟩
  | .hbm, ⟨20, _⟩ => ⟨S1000000x1, .f32⟩
  | .hbm, ⟨21, _⟩ => ⟨S1000000x57, .f32⟩
  | .hbm, ⟨22, _⟩ => ⟨S1000000x57, .f32⟩
  | .hbm, ⟨23, _⟩ => ⟨S1000000x57, .f32⟩
  | .hbm, ⟨24, _⟩ => ⟨S1000000x1, .f32⟩
  | .hbm, ⟨25, _⟩ => ⟨S1000000x16, .f32⟩
  | .hbm, ⟨26, _⟩ => ⟨S_, .f32⟩
  | .hbm, ⟨27, _⟩ => ⟨S1000000, .f32⟩
  | .hbm, ⟨28, _⟩ => ⟨S1000000x1, .f32⟩
  | .hbm, ⟨29, _⟩ => ⟨S1000000x1, .f32⟩
  | .hbm, ⟨30, _⟩ => ⟨S1000000x1, .f32⟩
  | .hbm, ⟨31, _⟩ => ⟨S_, .f32⟩
  | .hbm, ⟨32, _⟩ => ⟨S1000000x16, .f32⟩
  | .hbm, ⟨33, _⟩ => ⟨S1000000x41, .f32⟩
  | .hbm, ⟨34, _⟩ => ⟨S1000000x57, .f32⟩
  | .hbm, ⟨35, _⟩ => ⟨S1000000x57, .f32⟩
  | .hbm, ⟨36, _⟩ => ⟨S1000000x57, .f32⟩
  | .hbm, ⟨37, _⟩ => ⟨S_, .f32⟩
  | .hbm, ⟨38, _⟩ => ⟨S1000000x1, .f32⟩
  | .hbm, ⟨39, _⟩ => ⟨S1000000x1, .f32⟩
  | .hbm, ⟨40, _⟩ => ⟨S1000000x57, .f32⟩
  | .hbm, ⟨41, _⟩ => ⟨S1000000x57, .f32⟩
  | .hbm, ⟨42, _⟩ => ⟨S1000000x57, .f32⟩
  | .hbm, ⟨43, _⟩ => ⟨S1000000x1, .f32⟩
  | .hbm, ⟨44, _⟩ => ⟨S1000000x8, .f32⟩
  | .hbm, ⟨45, _⟩ => ⟨S_, .f32⟩
  | .hbm, ⟨46, _⟩ => ⟨S1000000, .f32⟩
  | .hbm, ⟨47, _⟩ => ⟨S1000000x1, .f32⟩
  | .hbm, ⟨48, _⟩ => ⟨S1000000x1, .f32⟩
  | .hbm, ⟨49, _⟩ => ⟨S1000000x1, .f32⟩
  | .hbm, ⟨50, _⟩ => ⟨S_, .f32⟩
  | .hbm, ⟨51, _⟩ => ⟨S1000000x8, .f32⟩
  | .hbm, ⟨52, _⟩ => ⟨S1000000x49, .f32⟩
  | .hbm, ⟨53, _⟩ => ⟨S1000000x57, .f32⟩
  | .hbm, ⟨54, _⟩ => ⟨S1000000x57, .f32⟩
  | .hbm, ⟨55, _⟩ => ⟨S1000000x57, .f32⟩
  | .hbm, ⟨56, _⟩ => ⟨S_, .f32⟩
  | .hbm, ⟨57, _⟩ => ⟨S1000000x1, .f32⟩
  | .hbm, ⟨58, _⟩ => ⟨S1000000x1, .f32⟩
  | .hbm, ⟨59, _⟩ => ⟨S1000000x57, .f32⟩
  | .hbm, ⟨60, _⟩ => ⟨S1000000x57, .f32⟩
  | .hbm, ⟨61, _⟩ => ⟨S1000000x57, .f32⟩
  | .hbm, ⟨62, _⟩ => ⟨S1000000x1, .f32⟩
  | .hbm, ⟨63, _⟩ => ⟨S1000000x4, .f32⟩
  | .hbm, ⟨64, _⟩ => ⟨S_, .f32⟩
  | .hbm, ⟨65, _⟩ => ⟨S1000000, .f32⟩
  | .hbm, ⟨66, _⟩ => ⟨S1000000x1, .f32⟩
  | .hbm, ⟨67, _⟩ => ⟨S1000000x1, .f32⟩
  | .hbm, ⟨68, _⟩ => ⟨S1000000x1, .f32⟩
  | .hbm, ⟨69, _⟩ => ⟨S_, .f32⟩
  | .hbm, ⟨70, _⟩ => ⟨S1000000x4, .f32⟩
  | .hbm, ⟨71, _⟩ => ⟨S1000000x53, .f32⟩
  | .hbm, ⟨72, _⟩ => ⟨S1000000x57, .f32⟩
  | .hbm, ⟨73, _⟩ => ⟨S1000000x57, .f32⟩
  | .hbm, ⟨74, _⟩ => ⟨S1000000x57, .f32⟩
  | .hbm, ⟨75, _⟩ => ⟨S_, .f32⟩
  | .hbm, ⟨76, _⟩ => ⟨S1000000x1, .f32⟩
  | .hbm, ⟨77, _⟩ => ⟨S1000000x1, .f32⟩
  | .hbm, ⟨78, _⟩ => ⟨S1000000x57, .f32⟩
  | .hbm, ⟨79, _⟩ => ⟨S1000000x57, .f32⟩
  | .hbm, ⟨80, _⟩ => ⟨S1000000x57, .f32⟩
  | .hbm, ⟨81, _⟩ => ⟨S1000000x1, .f32⟩
  | .hbm, ⟨82, _⟩ => ⟨S1000000x2, .f32⟩
  | .hbm, ⟨83, _⟩ => ⟨S_, .f32⟩
  | .hbm, ⟨84, _⟩ => ⟨S1000000, .f32⟩
  | .hbm, ⟨85, _⟩ => ⟨S1000000x1, .f32⟩
  | .hbm, ⟨86, _⟩ => ⟨S1000000x1, .f32⟩
  | .hbm, ⟨87, _⟩ => ⟨S1000000x1, .f32⟩
  | .hbm, ⟨88, _⟩ => ⟨S_, .f32⟩
  | .hbm, ⟨89, _⟩ => ⟨S1000000x2, .f32⟩
  | .hbm, ⟨90, _⟩ => ⟨S1000000x55, .f32⟩
  | .hbm, ⟨91, _⟩ => ⟨S1000000x57, .f32⟩
  | .hbm, ⟨92, _⟩ => ⟨S1000000x57, .f32⟩
  | .hbm, ⟨93, _⟩ => ⟨S1000000x57, .f32⟩
  | .hbm, ⟨94, _⟩ => ⟨S_, .f32⟩
  | .hbm, ⟨95, _⟩ => ⟨S1000000x1, .f32⟩
  | .hbm, ⟨96, _⟩ => ⟨S1000000x1, .f32⟩
  | .hbm, ⟨97, _⟩ => ⟨S1000000x57, .f32⟩
  | .hbm, ⟨98, _⟩ => ⟨S1000000x57, .f32⟩
  | .hbm, ⟨99, _⟩ => ⟨S1000000x57, .f32⟩
  | .hbm, ⟨100, _⟩ => ⟨S1000000x1, .f32⟩
  | .hbm, ⟨101, _⟩ => ⟨S1000000x1, .f32⟩
  | .hbm, ⟨102, _⟩ => ⟨S_, .f32⟩
  | .hbm, ⟨103, _⟩ => ⟨S1000000, .f32⟩
  | .hbm, ⟨104, _⟩ => ⟨S1000000x1, .f32⟩
  | .hbm, ⟨105, _⟩ => ⟨S1000000x1, .f32⟩
  | .hbm, ⟨106, _⟩ => ⟨S1000000x1, .f32⟩
  | .hbm, ⟨107, _⟩ => ⟨S_, .f32⟩
  | .hbm, ⟨108, _⟩ => ⟨S1000000x1, .f32⟩
  | .hbm, ⟨109, _⟩ => ⟨S1000000x56, .f32⟩
  | .hbm, ⟨110, _⟩ => ⟨S1000000x57, .f32⟩
  | .hbm, ⟨111, _⟩ => ⟨S1000000x57, .f32⟩
  | .hbm, ⟨112, _⟩ => ⟨S1000000x57, .f32⟩
  | .hbm, ⟨113, _⟩ => ⟨S_, .f32⟩
  | .hbm, ⟨114, _⟩ => ⟨S1000000x1, .f32⟩
  | .hbm, ⟨115, _⟩ => ⟨S1000000x1, .f32⟩
  | .hbm, ⟨116, _⟩ => ⟨S1000000x57, .f32⟩
  | .hbm, ⟨117, _⟩ => ⟨S1000000x57, .f32⟩
  | .hbm, ⟨118, _⟩ => ⟨S1000000x57, .f32⟩
  | _, _ => ⟨S1000000x57, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_5 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_6 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_7 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_8 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_9 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_10 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_11 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_12 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_cst_13 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_14 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_cst_15 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_cst_16 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_cst_17 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩

abbrev nD : Nat := 1
abbrev τ : Topo := Topo.v7x

variable {F : FTy → Type} [FloatOps F]

class Facts₀ : Prop where
  slices_S1000000x57_S1000000x1_0_0 : S1000000x57.Slices ![0, 0] S1000000x1
  bcast_S_S1000000x1 : S_.BroadcastsInDim S1000000x1 (![] : Fin 0 → Fin S1000000x1.rank)
  slices_S1000000x6_S1000000x1_0_0 : S1000000x6.Slices ![0, 0] S1000000x1
  slices_S1000000x57_S1000000x32_0_25 : S1000000x57.Slices ![0, 25] S1000000x32
  reducesTo_S1000000x32_S1000000_d1 : S1000000x32.ReducesTo [1] S1000000
  h_S_ : 0 < S_.numel
  bcast_S1000000_S1000000x1_0 : S1000000.BroadcastsInDim S1000000x1 (![0] : Fin 1 → Fin S1000000x1.rank)
  bcast_S_S1000000x32 : S_.BroadcastsInDim S1000000x32 (![] : Fin 0 → Fin S1000000x32.rank)
  slices_S1000000x57_S1000000x25_0_0 : S1000000x57.Slices ![0, 0] S1000000x25
  concatenates_S1000000x32_S1000000x25_S1000000x57_d1 : Shape.Concatenates [S1000000x32, S1000000x25] S1000000x57 1
  bcast_S1000000x1_S1000000x57_0_1 : S1000000x1.BroadcastsInDim S1000000x57 (![0, 1] : Fin 2 → Fin S1000000x57.rank)
  slices_S1000000x6_S1000000x1_0_1 : S1000000x6.Slices ![0, 1] S1000000x1
  slices_S1000000x57_S1000000x16_0_41 : S1000000x57.Slices ![0, 41] S1000000x16
  reducesTo_S1000000x16_S1000000_d1 : S1000000x16.ReducesTo [1] S1000000
  bcast_S_S1000000x16 : S_.BroadcastsInDim S1000000x16 (![] : Fin 0 → Fin S1000000x16.rank)
  slices_S1000000x57_S1000000x41_0_0 : S1000000x57.Slices ![0, 0] S1000000x41
  concatenates_S1000000x16_S1000000x41_S1000000x57_d1 : Shape.Concatenates [S1000000x16, S1000000x41] S1000000x57 1
  slices_S1000000x6_S1000000x1_0_2 : S1000000x6.Slices ![0, 2] S1000000x1
  slices_S1000000x57_S1000000x8_0_49 : S1000000x57.Slices ![0, 49] S1000000x8
  reducesTo_S1000000x8_S1000000_d1 : S1000000x8.ReducesTo [1] S1000000
  bcast_S_S1000000x8 : S_.BroadcastsInDim S1000000x8 (![] : Fin 0 → Fin S1000000x8.rank)
  slices_S1000000x57_S1000000x49_0_0 : S1000000x57.Slices ![0, 0] S1000000x49
  concatenates_S1000000x8_S1000000x49_S1000000x57_d1 : Shape.Concatenates [S1000000x8, S1000000x49] S1000000x57 1
  slices_S1000000x6_S1000000x1_0_3 : S1000000x6.Slices ![0, 3] S1000000x1
  slices_S1000000x57_S1000000x4_0_53 : S1000000x57.Slices ![0, 53] S1000000x4
  reducesTo_S1000000x4_S1000000_d1 : S1000000x4.ReducesTo [1] S1000000
  bcast_S_S1000000x4 : S_.BroadcastsInDim S1000000x4 (![] : Fin 0 → Fin S1000000x4.rank)
  slices_S1000000x57_S1000000x53_0_0 : S1000000x57.Slices ![0, 0] S1000000x53
  concatenates_S1000000x4_S1000000x53_S1000000x57_d1 : Shape.Concatenates [S1000000x4, S1000000x53] S1000000x57 1
  slices_S1000000x6_S1000000x1_0_4 : S1000000x6.Slices ![0, 4] S1000000x1
  slices_S1000000x57_S1000000x2_0_55 : S1000000x57.Slices ![0, 55] S1000000x2
  reducesTo_S1000000x2_S1000000_d1 : S1000000x2.ReducesTo [1] S1000000
  bcast_S_S1000000x2 : S_.BroadcastsInDim S1000000x2 (![] : Fin 0 → Fin S1000000x2.rank)
  slices_S1000000x57_S1000000x55_0_0 : S1000000x57.Slices ![0, 0] S1000000x55
  concatenates_S1000000x2_S1000000x55_S1000000x57_d1 : Shape.Concatenates [S1000000x2, S1000000x55] S1000000x57 1
  slices_S1000000x6_S1000000x1_0_5 : S1000000x6.Slices ![0, 5] S1000000x1
  slices_S1000000x57_S1000000x1_0_56 : S1000000x57.Slices ![0, 56] S1000000x1
  reducesTo_S1000000x1_S1000000_d1 : S1000000x1.ReducesTo [1] S1000000
  slices_S1000000x57_S1000000x56_0_0 : S1000000x57.Slices ![0, 0] S1000000x56
  concatenates_S1000000x1_S1000000x56_S1000000x57_d1 : Shape.Concatenates [S1000000x1, S1000000x56] S1000000x57 1

variable [Facts₀]

class Facts : Prop extends Facts₀ where

variable [Facts]
-- ==== Proof.LibHostLine.lean ====
/-
  Reading a straight line of host operations one operation at a time.

  When every operation of a line writes one buffer of its own, what the line leaves in the buffer the `k`-th
  operation writes is that operation's function of what the line leaves in its operands: the operations after the
  `k`-th write neither its result nor (writing once only, after their operands are written) its operands. The
  lemmas state this for any line whose written references are listed, one per operation, in order.
-/
import Idealize.ShloMosaic.Lib.StableHlo.Run
import Mathlib.Data.List.Forall2

namespace Cert.CubePad.Line

open Idealize.ShloMosaic Idealize.ShloMosaic.StableHlo

variable {τ : Topo} {sig : RefSig} {Val : EltTy → Type}

/-- A line run in two parts. -/
theorem after_append (l₁ l₂ : List (HloOp τ sig Val)) (V : Valuation τ sig Val) :
    after (l₁ ++ l₂) V = after l₂ (after l₁ V) := by
  induction l₁ generalizing V with
  | nil => rfl
  | cons op l ih => exact ih _

/-- The line `ops` writes the references `W`, one each, in order. -/
abbrev Writes (ops : List (HloOp τ sig Val)) (W : List (Ref sig .tc)) : Prop :=
  List.Forall₂ (fun op r => op.writes = {Proc.devRef (τ := τ) .tc r}) ops W

/-- A reference the line does not write keeps its contents. -/
theorem Writes.keeps {ops : List (HloOp τ sig Val)} {W : List (Ref sig .tc)} (h : Writes ops W) :
    ∀ (V : Valuation τ sig Val) {r : Ref sig .tc}, r ∉ W → after ops V (Proc.devRef .tc r) = V (Proc.devRef .tc r) := by
  induction h with
  | nil => intro V r _; rfl
  | cons e _ ih =>
    intro V r hr
    rw [after_cons, ih _ (fun hm => hr (List.mem_cons_of_mem _ hm)), HloOp.result_of_not_mem]
    rw [e, Finset.mem_singleton]
    exact devRef_ne_of_ne fun e' => hr (e' ▸ List.mem_cons_self)

/-- At a reference the operations from the `k`-th on do not write, the first `k` operations decide the contents. -/
theorem Writes.read_take {ops : List (HloOp τ sig Val)} {W : List (Ref sig .tc)} (h : Writes ops W) (k : Nat)
    (V : Valuation τ sig Val) {r : Ref sig .tc} (hr : r ∉ W.drop k) :
    after ops V (Proc.devRef .tc r) = after (ops.take k) V (Proc.devRef .tc r) := by
  conv_lhs => rw [← List.take_append_drop k ops]
  rw [after_append]
  exact Writes.keeps (List.forall₂_drop k h) _ hr

/-- At the reference the `k`-th operation writes (and no later one): that operation's result from what the first
    `k` operations leave. -/
theorem Writes.read_at {ops : List (HloOp τ sig Val)} {W : List (Ref sig .tc)} (h : Writes ops W) (V : Valuation τ sig Val)
    (k : Nat) (op : HloOp τ sig Val) (hk : ops[k]? = some op) {y : Ref sig .tc} (hy : y ∉ W.drop (k + 1)) :
    after ops V (Proc.devRef .tc y) = op.result (after (ops.take k) V) (Proc.devRef .tc y) := by
  rw [h.read_take (k + 1) V hy, List.take_succ, hk, after_append]
  rfl

/-- A one-operand operation, the `k`-th of the line: its result buffer ends at its function of what its operand's
    buffer ends at. -/
theorem Writes.unary_at {ops : List (HloOp τ sig Val)} {W : List (Ref sig .tc)} (h : Writes ops W) (V : Valuation τ sig Val)
    (k : Nat) (x y : Ref sig .tc) (f : x.ty.Contents Val → y.ty.Contents Val) (hx hy)
    (hk : ops[k]? = some (unary x y f hx hy)) (hyW : y ∉ W.drop (k + 1)) (hxW : x ∉ W.drop k) :
    after ops V (Proc.devRef .tc y) = f (after ops V (Proc.devRef .tc x)) := by
  rw [h.read_at V k _ hk hyW, unary_result, h.read_take k V hxW]

/-- A reshape, the `k`-th of the line. -/
theorem Writes.reshape_at {ops : List (HloOp τ sig Val)} {W : List (Ref sig .tc)} (h : Writes ops W) (V : Valuation τ sig Val)
    (k : Nat) (x y : Ref sig .tc) (he : x.ty.elt = y.ty.elt) (hn : x.ty.shape.ShapeCasts y.ty.shape) (hx hy)
    (hk : ops[k]? = some (reshape x y he hn hx hy)) (hyW : y ∉ W.drop (k + 1)) (hxW : x ∉ W.drop k) :
    after ops V (Proc.devRef .tc y) = fun i => he ▸ shapeCast y.ty.shape (after ops V (Proc.devRef .tc x)) hn i := by
  rw [h.read_at V k _ hk hyW, reshape_result, h.read_take k V hxW]

/-- An operation of several operands, the `k`-th of the line. -/
theorem Writes.nary_at {ops : List (HloOp τ sig Val)} {W : List (Ref sig .tc)} (h : Writes ops W) (V : Valuation τ sig Val)
    (k : Nat) {n : Nat} (xs : Fin n → Ref sig .tc) (y : Ref sig .tc)
    (f : ((j : Fin n) → (xs j).ty.Contents Val) → y.ty.Contents Val) (hxs hy)
    (hk : ops[k]? = some (nary xs y f hxs hy)) (hyW : y ∉ W.drop (k + 1)) (hxW : ∀ j, xs j ∉ W.drop k) :
    after ops V (Proc.devRef .tc y) = f (fun j => after ops V (Proc.devRef .tc (xs j))) := by
  rw [h.read_at V k _ hk hyW, nary_result]
  exact congrArg f (funext fun j => (h.read_take k V (hxW j)).symm)

/-- A reference the line never writes (an argument) keeps its contents. -/
theorem Writes.arg {ops : List (HloOp τ sig Val)} {W : List (Ref sig .tc)} (h : Writes ops W) (V : Valuation τ sig Val)
    {r : Ref sig .tc} (hr : r ∉ W) : after ops V (Proc.devRef .tc r) = V (Proc.devRef .tc r) :=
  h.keeps V hr

end Cert.CubePad.Line
-- ==== Proof.LibHostLineMore.lean ====
/-
  Reading a straight line of host operations one operation at a time: the operations of no operand, of two and of three.

  As for an operation of one operand: when every operation of the line writes one reference of its own, what the line
  leaves in the reference its k-th operation writes is that operation's function of what the line leaves in its operands,
  because no later operation writes the result, and none from the k-th on writes an operand. Also: two lines that each write
  their own listed references, run one after the other, write the two lists in order; and, for a line written out as a literal
  list, its three side facts (what it writes, that it stays on TensorCore references, that it allocates nothing) each by one pass.
-/
import proofs.«176717_j76312978916098_2_alg».proof.Proof.LibHostLine

namespace Cert.Line

open Idealize.ShloMosaic Idealize.ShloMosaic.StableHlo Cert.CubePad.Line

variable {τ : Topo} {sig : RefSig} {Val : EltTy → Type}

/-- Two lines, each writing its own listed references in order, written one after the other. -/
theorem writes_append {l₁ l₂ : List (HloOp τ sig Val)} {W₁ W₂ : List (Ref sig .tc)}
    (h₁ : Writes l₁ W₁) (h₂ : Writes l₂ W₂) : Writes (l₁ ++ l₂) (W₁ ++ W₂) := by
  induction h₁ with
  | nil => exact h₂
  | cons e _ ih => exact List.Forall₂.cons e ih

/-- An operation of no operand, the k-th of the line: its result reference ends at its value. -/
theorem nullary_at {ops : List (HloOp τ sig Val)} {W : List (Ref sig .tc)} (h : Writes ops W) (V : Valuation τ sig Val)
    (k : Nat) (y : Ref sig .tc) (v : y.ty.Contents Val) (hy)
    (hk : ops[k]? = some (nullary y v hy)) (hyW : y ∉ W.drop (k + 1)) :
    after ops V (Proc.devRef .tc y) = v := by
  rw [h.read_at V k _ hk hyW, nullary_result]

/-- An operation of two operands, the k-th of the line: its result reference ends at its function of what its operands'
    references end at. -/
theorem binary_at {ops : List (HloOp τ sig Val)} {W : List (Ref sig .tc)} (h : Writes ops W) (V : Valuation τ sig Val)
    (k : Nat) (a b y : Ref sig .tc) (f : a.ty.Contents Val → b.ty.Contents Val → y.ty.Contents Val) (ha hb hy)
    (hk : ops[k]? = some (binary a b y f ha hb hy)) (hyW : y ∉ W.drop (k + 1)) (haW : a ∉ W.drop k) (hbW : b ∉ W.drop k) :
    after ops V (Proc.devRef .tc y) = f (after ops V (Proc.devRef .tc a)) (after ops V (Proc.devRef .tc b)) := by
  rw [h.read_at V k _ hk hyW, binary_result, h.read_take k V haW, h.read_take k V hbW]

/-- An operation of three operands, the k-th of the line. -/
theorem ternary_at {ops : List (HloOp τ sig Val)} {W : List (Ref sig .tc)} (h : Writes ops W) (V : Valuation τ sig Val)
    (k : Nat) (c a b y : Ref sig .tc)
    (f : c.ty.Contents Val → a.ty.Contents Val → b.ty.Contents Val → y.ty.Contents Val) (hc ha hb hy)
    (hk : ops[k]? = some (ternary c a b y f hc ha hb hy)) (hyW : y ∉ W.drop (k + 1))
    (hcW : c ∉ W.drop k) (haW : a ∉ W.drop k) (hbW : b ∉ W.drop k) :
    after ops V (Proc.devRef .tc y)
      = f (after ops V (Proc.devRef .tc c)) (after ops V (Proc.devRef .tc a)) (after ops V (Proc.devRef .tc b)) := by
  rw [h.read_at V k _ hk hyW, ternary_result, h.read_take k V hcW, h.read_take k V haW, h.read_take k V hbW]

/-! ## A literal line's three facts, each by one pass over the list

For a line written out as a literal list of the builders' operations: that it writes the listed references, one each, in order
(each builder's written set is the singleton of its result reference, by definition); that it touches TensorCore references only
(each builder's own lemma); that it allocates nothing (each builder's fresh set is empty, by definition). -/

/-- Closes `Writes ops W` for literal lists of equal length: one `rfl` per operation. -/
macro "line_writes" : tactic =>
  `(tactic| repeat (first | exact List.Forall₂.nil | refine List.Forall₂.cons rfl ?_))

/-- Closes `ops.Forall fun op => op.bufs ⊆ tcRefs τ sig` for a literal list of the builders' operations. -/
macro "line_sub" : tactic =>
  `(tactic| simp only [List.Forall, nullary_bufs_sub, unary_bufs_sub, binary_bufs_sub, ternary_bufs_sub, nary_bufs_sub, and_self])

/-- Closes `ops.Forall fun op => op.fresh = ∅` for a literal list of the builders' operations. -/
macro "line_fresh" : tactic =>
  `(tactic| (simp only [List.Forall]; repeat' constructor))

end Cert.Line
-- ==== Proof.RefLine.lean ====
/-
  The reference's line of 117 host operations, ready to be read one operation at a time.

  Every operation of the line writes one buffer of its own, so what the whole line leaves in the buffer its k-th
  operation writes is that operation's function of what the line leaves in its operands. This module lists the
  written buffers in order and gives the three reading steps — for an operation of no operand, of one and of two —
  at a position k of the line. The positions: three operations open the line (a column of the data that nothing
  reads, the zero, the zero column the sticky value starts from); then each of the six layers takes 19 operations
  in the same order, layer l starting at position 3 + 19·l:
    +0 the control column, +1 the row's last columns, +2 −∞, +3 their maximum, +4 as a column, +5 times the control
    column, +6 the new sticky column, +7 zero, +8 the zero block, +9 the row's first columns, +10 zeros then those,
    +11 the control column across the row, +12 times the shifted row, +13 one, +14 the ones column, +15 one minus
    the control column, +16 across the row, +17 times the row, +18 the new row.
-/
import Idealize.ShloMosaic.PureOps.Ideal
import proofs.«176717_j76312978916098_2_alg».proof.Proof.RunLine
import proofs.«176717_j76312978916098_2_alg».proof.Proof.LibHostLineMore

noncomputable section

namespace Cert.Barrel.RefLine

open Idealize.ShloMosaic Idealize.ShloMosaic.StableHlo
open Cert.ReferenceIdeal Cert.ReferenceIdeal.ValueP Cert.CubePad.Line

/-- The buffers the 117 operations write, in order. -/
abbrev W : List (Ref sig .tc) :=
  [main_v0, main_cst, main_v1,
   main_v2, main_v3, main_cst_0, main_v4, main_v5, main_v6, main_v7, main_cst_1, main_v8, main_v9, main_v10, main_v11,
   main_v12, main_cst_2, main_v13, main_v14, main_v15, main_v16, main_v17,
   main_v18, main_v19, main_cst_3, main_v20, main_v21, main_v22, main_v23, main_cst_4, main_v24, main_v25, main_v26,
   main_v27, main_v28, main_cst_5, main_v29, main_v30, main_v31, main_v32, main_v33,
   main_v34, main_v35, main_cst_6, main_v36, main_v37, main_v38, main_v39, main_cst_7, main_v40, main_v41, main_v42,
   main_v43, main_v44, main_cst_8, main_v45, main_v46, main_v47, main_v48, main_v49,
   main_v50, main_v51, main_cst_9, main_v52, main_v53, main_v54, main_v55, main_cst_10, main_v56, main_v57, main_v58,
   main_v59, main_v60, main_cst_11, main_v61, main_v62, main_v63, main_v64, main_v65,
   main_v66, main_v67, main_cst_12, main_v68, main_v69, main_v70, main_v71, main_cst_13, main_v72, main_v73, main_v74,
   main_v75, main_v76, main_cst_14, main_v77, main_v78, main_v79, main_v80, main_v81,
   main_v82, main_v83, main_cst_15, main_v84, main_v85, main_v86, main_v87, main_cst_16, main_v88, main_v89, main_v90,
   main_v91, main_v92, main_cst_17, main_v93, main_v94, main_v95, main_v96, main_v97]

set_option maxRecDepth 8192 in
/-- Each operation writes the listed buffer and nothing else. -/
theorem hW : Writes (τ := τ) (ops (F := Ideal)) W := by
  line_writes

/-- Read the operation of no operand at position k: its buffer ends at its value. -/
macro "read0 " k:num : tactic =>
  `(tactic| rw [Cert.Line.nullary_at Cert.Barrel.RefLine.hW _ $k _ _ _ rfl (by decide)])

/-- Read the operation of one operand at position k: its buffer ends at its function of its operand's buffer. -/
macro "read1 " k:num : tactic =>
  `(tactic| rw [Cert.CubePad.Line.Writes.unary_at Cert.Barrel.RefLine.hW _ $k _ _ _ _ _ rfl (by decide) (by decide)])

/-- Read the operation of two operands at position k. -/
macro "read2 " k:num : tactic =>
  `(tactic| rw [Cert.Line.binary_at Cert.Barrel.RefLine.hW _ $k _ _ _ _ _ _ _ rfl (by decide) (by decide) (by decide)])

end Cert.Barrel.RefLine

end
-- ==== Proof.Spec.lean ====
/-
  The barrel shifter on one row, as plain functions of the row.

  A row is 57 values. Six layers, for the amounts 32, 16, 8, 4, 2, 1, each take the row so far and one control value `s`:
  the layer's output at position j is  s · (row moved right by the amount, zero-filled)(j) + (1 − s) · row(j),  and the
  sticky value grows by  max(sticky, s · (largest of the row's last `amount` entries)).  The two results of the whole
  computation on an array of N rows are, row by row, the row after the sixth layer and the sticky value after it.
  Everything is written with the float operations themselves (read at the exact instance they are the extended reals'
  operations), so that two programs applying the same operations to the same entries agree without any algebra.
-/
import Idealize.ShloMosaic.PureOps.Ideal
import Idealize.ShloMosaic.Lib.ValueIdx

noncomputable section

namespace Cert.Barrel

open Idealize.ShloMosaic Idealize.ShloMosaic.ValueIdx

/-- Row `n` of an array of `N` rows and `W` columns, as a function of the column. -/
def rowOf {N W : ℕ} (v : (⟨2, ![N, W]⟩ : Shape).Idx → Ideal .f32) (n : Fin N) : Fin W → Ideal .f32 := fun k => v (ix2 n k)

/-- The row moved `a` places toward the higher positions: position `j` holds what was at `j − a`, and the first `a`
    positions hold zero. -/
def shiftRow (a : ℕ) (x : Fin 57 → Ideal .f32) : Fin 57 → Ideal .f32 := fun j =>
  if h : a ≤ j.val then x ⟨j.val - a, by have := j.isLt; omega⟩ else FloatOps.ofBits (F := Ideal) .f32 0x00000000#32

/-- The largest of the `a` entries of the row from position `o` on (these are the row's last `a` entries: o + a = 57),
    starting the maximum from −∞. -/
def tailMax (o a : ℕ) (h : o + a = 57) (x : Fin 57 → Ideal .f32) : Ideal .f32 :=
  (Finset.univ : Finset (Fin a)).fold max (FloatOps.ofBits (F := Ideal) .f32 0xFF800000#32)
    fun k => x ⟨o + k.val, by have := k.isLt; omega⟩

/-- One layer on the row: s · shifted + (1 − s) · row, position by position. -/
def stepRow (a : ℕ) (s : Ideal .f32) (x : Fin 57 → Ideal .f32) : Fin 57 → Ideal .f32 := fun j =>
  FloatOps.addf (FloatOps.mulf s (shiftRow a x j))
    (FloatOps.mulf (FloatOps.subf (FloatOps.ofBits (F := Ideal) .f32 0x3F800000#32) s) (x j))

/-- One layer on the sticky value: max(sticky, s · largest of the entries that the layer shifts out). -/
def stepSticky (o a : ℕ) (h : o + a = 57) (s : Ideal .f32) (x : Fin 57 → Ideal .f32) (acc : Ideal .f32) : Ideal .f32 :=
  FloatOps.maximumf acc (FloatOps.mulf s (tailMax o a h x))

section Layers
variable (x : Fin 57 → Ideal .f32) (s : Fin 6 → Ideal .f32)

/-- The row after each of the six layers. -/
def cur1 : Fin 57 → Ideal .f32 := stepRow 32 (s 0) x
def cur2 : Fin 57 → Ideal .f32 := stepRow 16 (s 1) (cur1 x s)
def cur3 : Fin 57 → Ideal .f32 := stepRow 8 (s 2) (cur2 x s)
def cur4 : Fin 57 → Ideal .f32 := stepRow 4 (s 3) (cur3 x s)
def cur5 : Fin 57 → Ideal .f32 := stepRow 2 (s 4) (cur4 x s)
def cur6 : Fin 57 → Ideal .f32 := stepRow 1 (s 5) (cur5 x s)

/-- The sticky value after each of the six layers; it starts at zero. -/
def stk1 : Ideal .f32 := stepSticky 25 32 rfl (s 0) x (FloatOps.ofBits (F := Ideal) .f32 0x00000000#32)
def stk2 : Ideal .f32 := stepSticky 41 16 rfl (s 1) (cur1 x s) (stk1 x s)
def stk3 : Ideal .f32 := stepSticky 49 8 rfl (s 2) (cur2 x s) (stk2 x s)
def stk4 : Ideal .f32 := stepSticky 53 4 rfl (s 3) (cur3 x s) (stk3 x s)
def stk5 : Ideal .f32 := stepSticky 55 2 rfl (s 4) (cur4 x s) (stk4 x s)
def stk6 : Ideal .f32 := stepSticky 56 1 rfl (s 5) (cur5 x s) (stk5 x s)

end Layers

/-- The shifted array: row `n` of the result is the sixth layer's row computed from row `n` of the data and row `n` of the
    control bits. -/
def shifted {N : ℕ} (X : (⟨2, ![N, 57]⟩ : Shape).Idx → Ideal .f32) (S : (⟨2, ![N, 6]⟩ : Shape).Idx → Ideal .f32) :
    (⟨2, ![N, 57]⟩ : Shape).Idx → Ideal .f32 := fun i => cur6 (rowOf X (i 0)) (rowOf S (i 0)) (i 1)

/-- The sticky column: its one entry in row `n` is the sticky value after the sixth layer on row `n`. -/
def sticky {N : ℕ} (X : (⟨2, ![N, 57]⟩ : Shape).Idx → Ideal .f32) (S : (⟨2, ![N, 6]⟩ : Shape).Idx → Ideal .f32) :
    (⟨2, ![N, 1]⟩ : Shape).Idx → Ideal .f32 := fun i => stk6 (rowOf X (i 0)) (rowOf S (i 0))

theorem shifted_apply {N : ℕ} (X : (⟨2, ![N, 57]⟩ : Shape).Idx → Ideal .f32) (S : (⟨2, ![N, 6]⟩ : Shape).Idx → Ideal .f32)
    (n : Fin N) (k : Fin 57) : shifted X S (ix2 n k) = cur6 (rowOf X n) (rowOf S n) k := rfl

theorem sticky_apply {N : ℕ} (X : (⟨2, ![N, 57]⟩ : Shape).Idx → Ideal .f32) (S : (⟨2, ![N, 6]⟩ : Shape).Idx → Ideal .f32)
    (n : Fin N) (u : Fin 1) : sticky X S (ix2 n u) = stk6 (rowOf X n) (rowOf S n) := rfl

end Cert.Barrel

end
-- ==== Proof.LibLayoutCols.lean ====
/-
  Layout operations of a host program read at one index, for arrays of rank one and two given by coordinates.

  A broadcast, a slice of columns, a reversal of the columns, a concatenation of columns and a gather of whole columns
  each read, at the entry (n, k) of their result, one entry of one operand. The lemmas name that entry by its
  coordinates, so that a value at an index is rewritten operation by operation down to the arrays the program starts from.
-/
import Idealize.ShloMosaic.Lib.Pipeline.Value
import Idealize.ShloMosaic.Lib.ValueIdx

noncomputable section

namespace Cert.RefLayout

open Idealize.ShloMosaic Idealize.ShloMosaic.ValueIdx

variable {α : Type}

/-! ## Broadcasts -/

/-- A scalar broadcast to any shape reads the scalar at every index. -/
theorem bcast0_apply (t : Shape) (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A length-N array made the one column of an [N, 1] array: entry (n, 0) is entry n. -/
theorem bcast_col_apply {N : Nat} (h : (⟨1, ![N]⟩ : Shape).BroadcastsInDim ⟨2, ![N, 1]⟩ ![0])
    (x : (⟨1, ![N]⟩ : Shape).Idx → α) (n : Fin N) (k : Fin 1) :
    broadcastInDim ⟨2, ![N, 1]⟩ ![0] h x (ix2 n k) = x (ix1 n) :=
  broadcastInDim_apply _ h x _ (ix1 n) fun a => match a with
    | ⟨0, _⟩ => by
      show n.val = if N = 1 then 0 else n.val
      split
      · have := n.isLt; omega
      · rfl

/-- A length-W array made the one row of a [1, W] array: entry (0, k) is entry k. -/
theorem bcast_row_apply {W : Nat} (h : (⟨1, ![W]⟩ : Shape).BroadcastsInDim ⟨2, ![1, W]⟩ ![1])
    (x : (⟨1, ![W]⟩ : Shape).Idx → α) (n : Fin 1) (k : Fin W) :
    broadcastInDim ⟨2, ![1, W]⟩ ![1] h x (ix2 n k) = x (ix1 k) :=
  broadcastInDim_apply _ h x _ (ix1 k) fun a => match a with
    | ⟨0, _⟩ => by
      show k.val = if W = 1 then 0 else k.val
      split
      · have := k.isLt; omega
      · rfl

/-- A [1, W] array repeated down N rows: entry (n, k) is entry (0, k). -/
theorem bcast_rows_apply {N W : Nat} (h : (⟨2, ![1, W]⟩ : Shape).BroadcastsInDim ⟨2, ![N, W]⟩ ![0, 1])
    (x : (⟨2, ![1, W]⟩ : Shape).Idx → α) (n : Fin N) (k : Fin W) :
    broadcastInDim ⟨2, ![N, W]⟩ ![0, 1] h x (ix2 n k) = x (ix2 0 k) :=
  broadcastInDim_apply _ h x _ (ix2 0 k) fun a => match a with
    | ⟨0, _⟩ => rfl
    | ⟨1, _⟩ => by
      show k.val = if W = 1 then 0 else k.val
      split
      · have := k.isLt; omega
      · rfl

/-- An [N, 1] array repeated across W columns: entry (n, k) is entry (n, 0). -/
theorem bcast_cols_apply {N W : Nat} (h : (⟨2, ![N, 1]⟩ : Shape).BroadcastsInDim ⟨2, ![N, W]⟩ ![0, 1])
    (x : (⟨2, ![N, 1]⟩ : Shape).Idx → α) (n : Fin N) (k : Fin W) :
    broadcastInDim ⟨2, ![N, W]⟩ ![0, 1] h x (ix2 n k) = x (ix2 n 0) :=
  broadcastInDim_apply _ h x _ (ix2 n 0) fun a => match a with
    | ⟨0, _⟩ => by
      show n.val = if N = 1 then 0 else n.val
      split
      · have := n.isLt; omega
      · rfl
    | ⟨1, _⟩ => rfl

/-! ## A slice of columns, and the columns reversed -/

/-- Columns o, …, o + W - 1 of an [N, M] array: entry (n, k) is entry (n, o + k). -/
theorem slice_cols_apply {N M W : Nat} (o : Nat) (h : (⟨2, ![N, M]⟩ : Shape).Slices ![0, o] ⟨2, ![N, W]⟩)
    (x : (⟨2, ![N, M]⟩ : Shape).Idx → α) (n : Fin N) (k : Fin W) (hk : o + k.val < M) :
    extractStridedSlice ⟨2, ![N, W]⟩ ![0, o] x h (ix2 n k) = x (ix2 n ⟨o + k.val, hk⟩) :=
  extractStridedSlice_apply _ x h _ _ fun a => match a with
    | ⟨0, _⟩ => by show n.val = 0 + n.val; omega
    | ⟨1, _⟩ => rfl

/-- The columns of an [N, W] array in the opposite order: entry (n, k) is entry (n, W - 1 - k). -/
theorem reverse_cols_apply {N W : Nat} (x : (⟨2, ![N, W]⟩ : Shape).Idx → α) (n : Fin N) (k : Fin W) :
    Host.reverse (s := ⟨2, ![N, W]⟩) [1] x (ix2 n k) = x (ix2 n k.rev) := by
  unfold Host.reverse
  refine congrArg x (funext fun a => ?_)
  match a with
  | ⟨0, _⟩ => rfl
  | ⟨1, _⟩ => rfl

/-! ## Columns laid side by side -/

/-- W arrays of shape [N, 1] concatenated along the columns: entry (n, k) is entry (n, 0) of the k-th. -/
theorem cat_cols_apply {N W : Nat} (f : Fin W → ((⟨2, ![N, 1]⟩ : Shape).Idx → α))
    (h : Shape.Concatenates ((List.ofFn fun c : Fin W => (⟨⟨2, ![N, 1]⟩, f c⟩ : (s : Shape) × (s.Idx → α))).map (·.1)) ⟨2, ![N, W]⟩ 1)
    (n : Fin N) (k : Fin W) :
    concatenate ⟨2, ![N, W]⟩ 1 (List.ofFn fun c : Fin W => (⟨⟨2, ![N, 1]⟩, f c⟩ : (s : Shape) × (s.Idx → α))) h (ix2 n k)
      = f k (ix2 n 0) :=
  concatenate_ofFn_unit_apply (t := ⟨2, ![N, W]⟩) (s₁ := ⟨2, ![N, 1]⟩) 1 f h rfl rfl (ix2 n k) k rfl (ix2 n 0)
    fun b hb => match b with
      | ⟨0, _⟩ => rfl
      | ⟨1, _⟩ => absurd rfl hb

/-- Two to nine columns side by side, as literal lists: entry (n, k) is entry (n, 0) of the k-th column. -/
theorem cat2_apply {N : Nat} (c0 c1 : (⟨2, ![N, 1]⟩ : Shape).Idx → α) (h) (n : Fin N) (k : Fin 2) :
    concatenate ⟨2, ![N, 2]⟩ 1 [⟨⟨2, ![N, 1]⟩, c0⟩, ⟨⟨2, ![N, 1]⟩, c1⟩] h (ix2 n k) = ![c0, c1] k (ix2 n 0) :=
  cat_cols_apply ![c0, c1] h n k

theorem cat3_apply {N : Nat} (c0 c1 c2 : (⟨2, ![N, 1]⟩ : Shape).Idx → α) (h) (n : Fin N) (k : Fin 3) :
    concatenate ⟨2, ![N, 3]⟩ 1 [⟨⟨2, ![N, 1]⟩, c0⟩, ⟨⟨2, ![N, 1]⟩, c1⟩, ⟨⟨2, ![N, 1]⟩, c2⟩] h (ix2 n k) = ![c0, c1, c2] k (ix2 n 0) :=
  cat_cols_apply ![c0, c1, c2] h n k

theorem cat4_apply {N : Nat} (c0 c1 c2 c3 : (⟨2, ![N, 1]⟩ : Shape).Idx → α) (h) (n : Fin N) (k : Fin 4) :
    concatenate ⟨2, ![N, 4]⟩ 1 [⟨⟨2, ![N, 1]⟩, c0⟩, ⟨⟨2, ![N, 1]⟩, c1⟩, ⟨⟨2, ![N, 1]⟩, c2⟩, ⟨⟨2, ![N, 1]⟩, c3⟩] h (ix2 n k) = ![c0, c1, c2, c3] k (ix2 n 0) :=
  cat_cols_apply ![c0, c1, c2, c3] h n k

theorem cat5_apply {N : Nat} (c0 c1 c2 c3 c4 : (⟨2, ![N, 1]⟩ : Shape).Idx → α) (h) (n : Fin N) (k : Fin 5) :
    concatenate ⟨2, ![N, 5]⟩ 1 [⟨⟨2, ![N, 1]⟩, c0⟩, ⟨⟨2, ![N, 1]⟩, c1⟩, ⟨⟨2, ![N, 1]⟩, c2⟩, ⟨⟨2, ![N, 1]⟩, c3⟩, ⟨⟨2, ![N, 1]⟩, c4⟩] h (ix2 n k) = ![c0, c1, c2, c3, c4] k (ix2 n 0) :=
  cat_cols_apply ![c0, c1, c2, c3, c4] h n k

theorem cat6_apply {N : Nat} (c0 c1 c2 c3 c4 c5 : (⟨2, ![N, 1]⟩ : Shape).Idx → α) (h) (n : Fin N) (k : Fin 6) :
    concatenate ⟨2, ![N, 6]⟩ 1 [⟨⟨2, ![N, 1]⟩, c0⟩, ⟨⟨2, ![N, 1]⟩, c1⟩, ⟨⟨2, ![N, 1]⟩, c2⟩, ⟨⟨2, ![N, 1]⟩, c3⟩, ⟨⟨2, ![N, 1]⟩, c4⟩, ⟨⟨2, ![N, 1]⟩, c5⟩] h (ix2 n k) = ![c0, c1, c2, c3, c4, c5] k (ix2 n 0) :=
  cat_cols_apply ![c0, c1, c2, c3, c4, c5] h n k

theorem cat7_apply {N : Nat} (c0 c1 c2 c3 c4 c5 c6 : (⟨2, ![N, 1]⟩ : Shape).Idx → α) (h) (n : Fin N) (k : Fin 7) :
    concatenate ⟨2, ![N, 7]⟩ 1 [⟨⟨2, ![N, 1]⟩, c0⟩, ⟨⟨2, ![N, 1]⟩, c1⟩, ⟨⟨2, ![N, 1]⟩, c2⟩, ⟨⟨2, ![N, 1]⟩, c3⟩, ⟨⟨2, ![N, 1]⟩, c4⟩, ⟨⟨2, ![N, 1]⟩, c5⟩, ⟨⟨2, ![N, 1]⟩, c6⟩] h (ix2 n k) = ![c0, c1, c2, c3, c4, c5, c6] k (ix2 n 0) :=
  cat_cols_apply ![c0, c1, c2, c3, c4, c5, c6] h n k

theorem cat8_apply {N : Nat} (c0 c1 c2 c3 c4 c5 c6 c7 : (⟨2, ![N, 1]⟩ : Shape).Idx → α) (h) (n : Fin N) (k : Fin 8) :
    concatenate ⟨2, ![N, 8]⟩ 1 [⟨⟨2, ![N, 1]⟩, c0⟩, ⟨⟨2, ![N, 1]⟩, c1⟩, ⟨⟨2, ![N, 1]⟩, c2⟩, ⟨⟨2, ![N, 1]⟩, c3⟩, ⟨⟨2, ![N, 1]⟩, c4⟩, ⟨⟨2, ![N, 1]⟩, c5⟩, ⟨⟨2, ![N, 1]⟩, c6⟩, ⟨⟨2, ![N, 1]⟩, c7⟩] h (ix2 n k) = ![c0, c1, c2, c3, c4, c5, c6, c7] k (ix2 n 0) :=
  cat_cols_apply ![c0, c1, c2, c3, c4, c5, c6, c7] h n k

theorem cat9_apply {N : Nat} (c0 c1 c2 c3 c4 c5 c6 c7 c8 : (⟨2, ![N, 1]⟩ : Shape).Idx → α) (h) (n : Fin N) (k : Fin 9) :
    concatenate ⟨2, ![N, 9]⟩ 1 [⟨⟨2, ![N, 1]⟩, c0⟩, ⟨⟨2, ![N, 1]⟩, c1⟩, ⟨⟨2, ![N, 1]⟩, c2⟩, ⟨⟨2, ![N, 1]⟩, c3⟩, ⟨⟨2, ![N, 1]⟩, c4⟩, ⟨⟨2, ![N, 1]⟩, c5⟩, ⟨⟨2, ![N, 1]⟩, c6⟩, ⟨⟨2, ![N, 1]⟩, c7⟩, ⟨⟨2, ![N, 1]⟩, c8⟩] h (ix2 n k) = ![c0, c1, c2, c3, c4, c5, c6, c7, c8] k (ix2 n 0) :=
  cat_cols_apply ![c0, c1, c2, c3, c4, c5, c6, c7, c8] h n k

/-! ## Three blocks of columns side by side -/

/-- The first block of [A | B | C]. -/
theorem cat3blocks_left {N a b c : Nat} (xa : (⟨2, ![N, a]⟩ : Shape).Idx → α) (xb : (⟨2, ![N, b]⟩ : Shape).Idx → α)
    (xc : (⟨2, ![N, c]⟩ : Shape).Idx → α) (h) (n : Fin N) (k : Fin (a + b + c)) (hk : k.val < a) :
    concatenate ⟨2, ![N, a + b + c]⟩ 1 [⟨⟨2, ![N, a]⟩, xa⟩, ⟨⟨2, ![N, b]⟩, xb⟩, ⟨⟨2, ![N, c]⟩, xc⟩] h (ix2 n k) = xa (ix2 n ⟨k.val, hk⟩) :=
  concatenate_apply_piece 1 _ h (ix2 n k) 0 (by simp) ⟨2, ![N, a]⟩ xa rfl rfl 0 rfl (ix2 n ⟨k.val, hk⟩)
    (fun b hb => match b with
      | ⟨0, _⟩ => rfl
      | ⟨1, _⟩ => absurd rfl hb)
    (by show 0 + k.val = k.val; omega)

/-- The middle block of [A | B | C]. -/
theorem cat3blocks_mid {N a b c : Nat} (xa : (⟨2, ![N, a]⟩ : Shape).Idx → α) (xb : (⟨2, ![N, b]⟩ : Shape).Idx → α)
    (xc : (⟨2, ![N, c]⟩ : Shape).Idx → α) (h) (n : Fin N) (k : Fin (a + b + c)) (hk : a ≤ k.val) (hk' : k.val - a < b) :
    concatenate ⟨2, ![N, a + b + c]⟩ 1 [⟨⟨2, ![N, a]⟩, xa⟩, ⟨⟨2, ![N, b]⟩, xb⟩, ⟨⟨2, ![N, c]⟩, xc⟩] h (ix2 n k) = xb (ix2 n ⟨k.val - a, hk'⟩) :=
  concatenate_apply_piece 1 _ h (ix2 n k) 1 (by simp) ⟨2, ![N, b]⟩ xb rfl rfl a (by simp) (ix2 n ⟨k.val - a, hk'⟩)
    (fun b hb => match b with
      | ⟨0, _⟩ => rfl
      | ⟨1, _⟩ => absurd rfl hb)
    (by show a + (k.val - a) = k.val; omega)

/-- The last block of [A | B | C]. -/
theorem cat3blocks_right {N a b c : Nat} (xa : (⟨2, ![N, a]⟩ : Shape).Idx → α) (xb : (⟨2, ![N, b]⟩ : Shape).Idx → α)
    (xc : (⟨2, ![N, c]⟩ : Shape).Idx → α) (h) (n : Fin N) (k : Fin (a + b + c)) (hk : a + b ≤ k.val) :
    concatenate ⟨2, ![N, a + b + c]⟩ 1 [⟨⟨2, ![N, a]⟩, xa⟩, ⟨⟨2, ![N, b]⟩, xb⟩, ⟨⟨2, ![N, c]⟩, xc⟩] h (ix2 n k)
      = xc (ix2 n ⟨k.val - (a + b), by have := k.isLt; omega⟩) :=
  concatenate_apply_piece 1 _ h (ix2 n k) 2 (by simp) ⟨2, ![N, c]⟩ xc rfl rfl (a + b) (by simp) (ix2 n ⟨k.val - (a + b), by have := k.isLt; omega⟩)
    (fun b hb => match b with
      | ⟨0, _⟩ => rfl
      | ⟨1, _⟩ => absurd rfl hb)
    (by show a + b + (k.val - (a + b)) = k.val; omega)

/-! ## A gather of whole columns -/

/-- The dimension numbers of a gather of whole columns: operand [N, M], start indices [W, 1], result [N, W];
    the one offset axis is the rows, the columns are collapsed and indexed. -/
abbrev colDims (N M W : Nat) (wf : GatherDims.WF ⟨2, ![N, M]⟩ ⟨2, ![W, 1]⟩ ⟨2, ![N, W]⟩ [0] [1] [] [1] [] 1 ![N, 1]) :
    GatherDims ⟨2, ![N, M]⟩ ⟨2, ![W, 1]⟩ ⟨2, ![N, W]⟩ where
  offsetDims := [0]
  collapsedSliceDims := [1]
  operandBatchingDims := []
  startIndicesBatchingDims := []
  startIndexMap := [1]
  indexVectorDim := 1
  sliceSizes := ![N, 1]
  wf := wf

/-- The gather read at (n, k): row n of the operand's column idx[k, 0], the start index read signed and clamped
    into [0, M - 1]. -/
theorem gather_cols_apply {N M W w : Nat} (hM : 0 < M)
    (wf : GatherDims.WF ⟨2, ![N, M]⟩ ⟨2, ![W, 1]⟩ ⟨2, ![N, W]⟩ [0] [1] [] [1] [] 1 ![N, 1])
    (x : (⟨2, ![N, M]⟩ : Shape).Idx → α) (idx : IVec ⟨2, ![W, 1]⟩ w) (n : Fin N) (k : Fin W) :
    Host.gather (colDims N M W wf) x idx (ix2 n k)
      = x (ix2 n ⟨min (idx (ix2 k 0)).toInt.toNat (M - 1), by omega⟩) := by
  unfold Host.gather
  congr 1
  funext a
  refine Fin.ext ?_
  match a with
  | ⟨0, _⟩ =>
    show (colDims N M W wf).start (ix2 n k) idx 0 + (colDims N M W wf).batchCoord (ix2 n k) 0
      + (colDims N M W wf).offCoord (ix2 n k) 0 = n.val
    rw [GatherDims.batchCoord_eq_zero _ _ _ List.not_mem_nil]
    have hs : (colDims N M W wf).start (ix2 n k) idx 0 = 0 := by
      unfold GatherDims.start
      rw [dif_neg (show ¬ (0 : Fin 2) ∈ ([1] : List (Fin 2)) by decide)]
    have ho : (colDims N M W wf).offCoord (ix2 n k) 0 = n.val := by
      unfold GatherDims.offCoord
      rw [dif_pos ((GatherDims.mem_sKept _ _).2 ⟨(show ¬ (0 : Fin 2) ∈ ([1] : List (Fin 2)) by decide), List.not_mem_nil⟩)]
      rfl
    rw [hs, ho]; omega
  | ⟨1, _⟩ =>
    show (colDims N M W wf).start (ix2 n k) idx 1 + (colDims N M W wf).batchCoord (ix2 n k) 1
      + (colDims N M W wf).offCoord (ix2 n k) 1 = min (idx (ix2 k 0)).toInt.toNat (M - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims N M W wf).startIndexMap from List.mem_singleton.mpr rfl)]
    have hsi : (colDims N M W wf).siIdx (ix2 n k) ⟨List.idxOf (1 : Fin 2) (colDims N M W wf).startIndexMap,
        List.idxOf_lt_length_iff.2 (List.mem_singleton.mpr rfl)⟩ = ix2 k 0 := by
      funext b; refine Fin.ext ?_
      match b with
      | ⟨0, _⟩ => rfl
      | ⟨1, _⟩ => rfl
    rw [hsi]
    rfl

/-! ## The host's quotient at an index -/

/-- On the extended reals the host's quotient of two arrays is, entry by entry, the total quotient of the entries. -/
theorem hostDivf_apply {s : Shape} {φ : FTy} (a b : FVec Ideal s φ) (i : s.Idx) : Host.divf a b i = Ideal.div (a i) (b i) := rfl

/-! ## A table of words read at an index -/

/-- A length-W table given by its entries in row-major order, read at entry k. -/
theorem table_apply (W : Nat) {β : Type} (hW : (⟨1, ![W]⟩ : Shape).numel = W) (T : Fin W → β) (k : Fin W) :
    T (((⟨1, ![W]⟩ : Shape).rowMajor (ix1 k)).cast hW) = T k :=
  congrArg T (Fin.ext (Shape.rowMajor_val_one _))

end Cert.RefLayout

end
-- ==== Proof.Columns.lean ====
/-
  The host program's operations on an [N, 57] array, read at one entry (n, k) in terms of row n.

  The host shifts a row by laying `a` columns of zeros in front of the row's first 57 − a columns: entry k of the result
  is zero for k < a and the row's entry k − a from column a on. A layer combines it with the control column broadcast
  across the columns; the sticky step takes the maximum over the row's last columns with a reduction from −∞.
-/
import Idealize.ShloMosaic.PureOps.Ideal.Laws
import Idealize.ShloMosaic.PureOps.Reduce
import Idealize.ShloMosaic.Lib.Pipeline.Value
import Idealize.ShloMosaic.Lib.ValueIdx
import proofs.«176717_j76312978916098_2_alg».proof.Proof.Spec
import proofs.«176717_j76312978916098_2_alg».proof.Proof.LibLayoutCols

noncomputable section

namespace Cert.Barrel.Columns

open Idealize.ShloMosaic Idealize.ShloMosaic.ValueIdx Cert.Barrel

variable {N : ℕ}

/-- `a` columns of zeros followed by the first `b` columns of the array (a + b = 57): entry (n, k) is zero before
    column a and the row's entry k − a from there on. -/
theorem zeros_prefix_apply (a b : ℕ) (hab : a + b = 57) (cur : (⟨2, ![N, 57]⟩ : Shape).Idx → Ideal .f32)
    (dims : Fin 0 → Fin 2) (hbz : (⟨0, ![]⟩ : Shape).BroadcastsInDim ⟨2, ![N, a]⟩ dims)
    (hsl : (⟨2, ![N, 57]⟩ : Shape).Slices ![0, 0] ⟨2, ![N, b]⟩)
    (hc : Shape.Concatenates [(⟨2, ![N, a]⟩ : Shape), ⟨2, ![N, b]⟩] ⟨2, ![N, 57]⟩ 1) (n : Fin N) (k : Fin 57) :
    concatenate ⟨2, ![N, 57]⟩ 1
        [⟨⟨2, ![N, a]⟩, broadcastInDim ⟨2, ![N, a]⟩ dims hbz (constant (F := Ideal) ⟨0, ![]⟩ .f32 0x00000000#32)⟩,
         ⟨⟨2, ![N, b]⟩, extractStridedSlice ⟨2, ![N, b]⟩ ![0, 0] cur hsl⟩] hc (ix2 n k)
      = shiftRow a (rowOf cur n) k := by
  have hk := k.isLt
  unfold shiftRow
  by_cases h : a ≤ k.val
  · rw [dif_pos h]
    refine (concatenate_pair_apply_right (t := ⟨2, ![N, 57]⟩) (s₁ := ⟨2, ![N, a]⟩) (s₂ := ⟨2, ![N, b]⟩) (1 : Fin 2) _ _ hc
      (ix2 n k) rfl rfl (ix2 n (⟨k.val - a, by omega⟩ : Fin b)) (fun c hc' => match c with
        | ⟨0, _⟩ => rfl
        | ⟨1, _⟩ => absurd rfl hc') (by show k.val - a + a = k.val; omega)).trans ?_
    refine (Cert.RefLayout.slice_cols_apply 0 hsl cur n (⟨k.val - a, by omega⟩ : Fin b) (by show 0 + (k.val - a) < 57; omega)).trans ?_
    exact congrArg cur (congrArg (ix2 n) (Fin.ext (by show 0 + (k.val - a) = k.val - a; omega)))
  · rw [dif_neg h]
    refine (concatenate_pair_apply_left (t := ⟨2, ![N, 57]⟩) (s₁ := ⟨2, ![N, a]⟩) (s₂ := ⟨2, ![N, b]⟩) (1 : Fin 2) _ _ hc
      (ix2 n k) rfl (ix2 n (⟨k.val, by omega⟩ : Fin a)) (fun c => match c with
        | ⟨0, _⟩ => rfl
        | ⟨1, _⟩ => rfl)).trans ?_
    exact Cert.RefLayout.bcast0_apply ⟨2, ![N, a]⟩ dims hbz _ _

/-- One layer read at (n, k): s · shifted + (1 − s) · row, with `s` the control column's entry of row n. -/
theorem layer_apply (a b : ℕ) (hab : a + b = 57) (cur : (⟨2, ![N, 57]⟩ : Shape).Idx → Ideal .f32)
    (s : (⟨2, ![N, 1]⟩ : Shape).Idx → Ideal .f32)
    (dims : Fin 0 → Fin 2) (hbz : (⟨0, ![]⟩ : Shape).BroadcastsInDim ⟨2, ![N, a]⟩ dims)
    (hsl : (⟨2, ![N, 57]⟩ : Shape).Slices ![0, 0] ⟨2, ![N, b]⟩)
    (hc : Shape.Concatenates [(⟨2, ![N, a]⟩ : Shape), ⟨2, ![N, b]⟩] ⟨2, ![N, 57]⟩ 1)
    (hb1 : (⟨0, ![]⟩ : Shape).BroadcastsInDim ⟨2, ![N, 1]⟩ dims)
    (hbc : (⟨2, ![N, 1]⟩ : Shape).BroadcastsInDim ⟨2, ![N, 57]⟩ ![0, 1]) (n : Fin N) (k : Fin 57) :
    addf (F := Ideal) (φ := .f32)
        (mulf (F := Ideal) (φ := .f32) (broadcastInDim ⟨2, ![N, 57]⟩ ![0, 1] hbc s)
          (concatenate ⟨2, ![N, 57]⟩ 1
            [⟨⟨2, ![N, a]⟩, broadcastInDim ⟨2, ![N, a]⟩ dims hbz (constant (F := Ideal) ⟨0, ![]⟩ .f32 0x00000000#32)⟩,
             ⟨⟨2, ![N, b]⟩, extractStridedSlice ⟨2, ![N, b]⟩ ![0, 0] cur hsl⟩] hc))
        (mulf (F := Ideal) (φ := .f32)
          (broadcastInDim ⟨2, ![N, 57]⟩ ![0, 1] hbc
            (subf (F := Ideal) (φ := .f32)
              (broadcastInDim ⟨2, ![N, 1]⟩ dims hb1 (constant (F := Ideal) ⟨0, ![]⟩ .f32 0x3F800000#32)) s))
          cur) (ix2 n k)
      = stepRow a (s (ix2 n 0)) (rowOf cur n) k := by
  unfold stepRow
  refine congrArg₂ (FloatOps.addf (F := Ideal) (φ := .f32))
    (congrArg₂ (FloatOps.mulf (F := Ideal) (φ := .f32)) ?_ ?_) (congrArg₂ (FloatOps.mulf (F := Ideal) (φ := .f32)) ?_ rfl)
  · exact Cert.RefLayout.bcast_cols_apply hbc s n k
  · exact zeros_prefix_apply a b hab cur dims hbz hsl hc n k
  · refine (Cert.RefLayout.bcast_cols_apply hbc _ n k).trans ?_
    refine congrArg (fun z => FloatOps.subf (F := Ideal) (φ := .f32) z (s (ix2 n 0))) ?_
    exact Cert.RefLayout.bcast0_apply ⟨2, ![N, 1]⟩ dims hb1 _ _

/-- The coordinate that a reduction over the columns removed, put back: row n with column k. -/
theorem lift_col {a : ℕ} (h : (⟨2, ![N, a]⟩ : Shape).Reduces [1] (⟨1, ![N]⟩ : Shape)) (n : Fin N)
    (k : Fin ((⟨2, ![N, a]⟩ : Shape).size 1)) : h.lift (ix1 n) k = ix2 n (⟨k.val, k.isLt⟩ : Fin a) := by
  funext c; apply Fin.ext
  fin_cases c <;> rfl

/-- The host's maximum over columns o, …, o + a − 1 from −∞, at row n: the largest of the row's last `a` entries. -/
theorem colMax_apply (o a : ℕ) (hoa : o + a = 57) (cur : (⟨2, ![N, 57]⟩ : Shape).Idx → Ideal .f32)
    (hsl : (⟨2, ![N, 57]⟩ : Shape).Slices ![0, o] ⟨2, ![N, a]⟩)
    (hrt : (⟨2, ![N, a]⟩ : Shape).ReducesTo [1] (⟨1, ![N]⟩ : Shape))
    (hred : (⟨2, ![N, a]⟩ : Shape).Reduces [1] (⟨1, ![N]⟩ : Shape))
    (hu : 0 < (⟨0, ![]⟩ : Shape).numel) (n : Fin N) :
    Host.reduce (FloatOps.maximumf (F := Ideal) (φ := .f32)) (extractStridedSlice ⟨2, ![N, a]⟩ ![0, o] cur hsl)
        (constant (F := Ideal) ⟨0, ![]⟩ .f32 0xFF800000#32) hrt hu (ix1 n)
      = tailMax o a hoa (rowOf cur n) := by
  rw [Host.reduce_eq_fold_single (FloatOps.maximumf (F := Ideal) (φ := .f32)) _ _ hrt hred hu]
  unfold tailMax
  refine congrArg (fun f => Finset.fold max (FloatOps.ofBits (F := Ideal) .f32 0xFF800000#32) f
    (Finset.univ : Finset (Fin a))) (funext fun k => ?_)
  show extractStridedSlice ⟨2, ![N, a]⟩ ![0, o] cur hsl (hred.lift (ix1 n) k) = _
  rw [lift_col hred n k]
  exact Cert.RefLayout.slice_cols_apply o hsl cur n ⟨k.val, k.isLt⟩ (by have := k.isLt; omega)

/-- One sticky step read at (n, 0): max(sticky, s · largest of the row's last `a` entries). -/
theorem sticky_step_apply (o a : ℕ) (hoa : o + a = 57) (cur : (⟨2, ![N, 57]⟩ : Shape).Idx → Ideal .f32)
    (s acc : (⟨2, ![N, 1]⟩ : Shape).Idx → Ideal .f32)
    (hsl : (⟨2, ![N, 57]⟩ : Shape).Slices ![0, o] ⟨2, ![N, a]⟩)
    (hrt : (⟨2, ![N, a]⟩ : Shape).ReducesTo [1] (⟨1, ![N]⟩ : Shape))
    (hred : (⟨2, ![N, a]⟩ : Shape).Reduces [1] (⟨1, ![N]⟩ : Shape))
    (hu : 0 < (⟨0, ![]⟩ : Shape).numel)
    (hbc : (⟨1, ![N]⟩ : Shape).BroadcastsInDim ⟨2, ![N, 1]⟩ ![0]) (n : Fin N) :
    maximumf (F := Ideal) (φ := .f32) acc
        (mulf (F := Ideal) (φ := .f32) s
          (broadcastInDim ⟨2, ![N, 1]⟩ ![0] hbc
            (Host.reduce (FloatOps.maximumf (F := Ideal) (φ := .f32)) (extractStridedSlice ⟨2, ![N, a]⟩ ![0, o] cur hsl)
              (constant (F := Ideal) ⟨0, ![]⟩ .f32 0xFF800000#32) hrt hu))) (ix2 n 0)
      = stepSticky o a hoa (s (ix2 n 0)) (rowOf cur n) (acc (ix2 n 0)) := by
  unfold stepSticky
  refine congrArg (fun z => FloatOps.maximumf (F := Ideal) (φ := .f32) (acc (ix2 n 0))
    (FloatOps.mulf (F := Ideal) (φ := .f32) (s (ix2 n 0)) z)) ?_
  exact (Cert.RefLayout.bcast_col_apply hbc _ n 0).trans (colMax_apply o a hoa cur hsl hrt hred hu n)

end Cert.Barrel.Columns

end
-- ==== Proof.Reference.lean ====
/-
  The reference program, operation by operation, is the specification.

  The host program runs the six layers on whole arrays of a million rows. What its line of operations leaves in each
  buffer is read one operation at a time (Proof/RefLine.lean has the positions). Layer by layer, the array left after
  a layer has, as row n, the specification's row after that layer computed from row n of the two arguments, and the
  sticky column left after it has, in row n, the specification's sticky value. The previous layer's array enters a
  layer only through its rows.
-/
import proofs.«176717_j76312978916098_2_alg».proof.Proof.RefLine
import proofs.«176717_j76312978916098_2_alg».proof.Proof.Columns

noncomputable section

namespace Cert.Barrel.Reference

open Idealize.ShloMosaic Idealize.ShloMosaic.ValueIdx Idealize.ShloMosaic.StableHlo Idealize.SL.Sem Cert.Barrel
open Cert.ReferenceIdeal Cert.ReferenceIdeal.ValueP Cert.CubePad.Line

variable (m : (ℓ : Loc nD τ sig) → Buf (Elt Ideal) ℓ) (c : Dev nD) (n : Fin 1000000)

-- `A[b]`: what the whole line leaves in buffer b.
set_option quotPrecheck false in
local notation "A[" b "]" => after (ops (F := Ideal)) (launchContents m c) (Proc.devRef Proc.tc b)

/-- Column l of the control bits, sliced out as a one-column array, has in row n the control bit l of row n. -/
theorem ctrl_apply (x1 : (⟨2, ![1000000, 6]⟩ : Shape).Idx → Ideal .f32) (l : ℕ) (hl : l < 6)
    (h : (⟨2, ![1000000, 6]⟩ : Shape).Slices ![0, l] ⟨2, ![1000000, 1]⟩) :
    extractStridedSlice ⟨2, ![1000000, 1]⟩ ![0, l] x1 h (ix2 n 0) = rowOf x1 n ⟨l, hl⟩ :=
  (Cert.RefLayout.slice_cols_apply l h x1 n 0 (by show l + 0 < 6; omega)).trans
    (congrArg x1 (congrArg (ix2 n) (Fin.ext (by show l + 0 = l; omega))))

/-- The sticky column starts at zero. -/
theorem stk0_eq : A[main_v1] (ix2 n 0) = FloatOps.ofBits (F := Ideal) .f32 0x00000000#32 := by
  read1 2
  read0 1
  rfl

/-! ## Layer 1 (positions 3 to 21): the row moves by 32, the sticky value looks at columns 25 to 56 -/

theorem s0_eq : A[main_v2] (ix2 n 0) = rowOf A[main_arg1] n 0 := by
  read1 3
  exact ctrl_apply n A[main_arg1] 0 (by omega) _

theorem cur1_row : rowOf A[main_v17] n = cur1 (rowOf A[main_arg0] n) (rowOf A[main_arg1] n) := by
  funext k
  show A[main_v17] (ix2 n k) = _
  read2 21; read2 15; read1 14; read2 13; read1 11; read0 10; read1 12; read2 20; read1 19; read2 18; read1 17; read0 16
  refine (Columns.layer_apply 32 25 rfl A[main_arg0] A[main_v2] _ _ _ _ _ _ n k).trans ?_
  unfold cur1
  rw [s0_eq m c n]

theorem stk1_eq : A[main_v7] (ix2 n 0) = stk1 (rowOf A[main_arg0] n) (rowOf A[main_arg1] n) := by
  read2 9; read2 8; read1 7; read2 6; read1 4; read0 5
  refine (Columns.sticky_step_apply 25 32 rfl A[main_arg0] A[main_v2] A[main_v1] _ _ (by decide) _ _ n).trans ?_
  unfold stk1
  rw [s0_eq m c n, stk0_eq m c n]

/-! ## Layer 2 (positions 22 to 40): the row moves by 16, the sticky value looks at columns 41 to 56 -/

theorem s1_eq : A[main_v18] (ix2 n 0) = rowOf A[main_arg1] n 1 := by
  read1 22
  exact ctrl_apply n A[main_arg1] 1 (by omega) _

theorem cur2_row : rowOf A[main_v33] n = cur2 (rowOf A[main_arg0] n) (rowOf A[main_arg1] n) := by
  funext k
  show A[main_v33] (ix2 n k) = _
  read2 40; read2 34; read1 33; read2 32; read1 30; read0 29; read1 31; read2 39; read1 38; read2 37; read1 36; read0 35
  refine (Columns.layer_apply 16 41 rfl A[main_v17] A[main_v18] _ _ _ _ _ _ n k).trans ?_
  unfold cur2
  rw [s1_eq m c n, cur1_row m c n]

theorem stk2_eq : A[main_v23] (ix2 n 0) = stk2 (rowOf A[main_arg0] n) (rowOf A[main_arg1] n) := by
  read2 28; read2 27; read1 26; read2 25; read1 23; read0 24
  refine (Columns.sticky_step_apply 41 16 rfl A[main_v17] A[main_v18] A[main_v7] _ _ (by decide) _ _ n).trans ?_
  unfold stk2
  rw [s1_eq m c n, cur1_row m c n, stk1_eq m c n]

/-! ## Layer 3 (positions 41 to 59): the row moves by 8, the sticky value looks at columns 49 to 56 -/

theorem s2_eq : A[main_v34] (ix2 n 0) = rowOf A[main_arg1] n 2 := by
  read1 41
  exact ctrl_apply n A[main_arg1] 2 (by omega) _

theorem cur3_row : rowOf A[main_v49] n = cur3 (rowOf A[main_arg0] n) (rowOf A[main_arg1] n) := by
  funext k
  show A[main_v49] (ix2 n k) = _
  read2 59; read2 53; read1 52; read2 51; read1 49; read0 48; read1 50; read2 58; read1 57; read2 56; read1 55; read0 54
  refine (Columns.layer_apply 8 49 rfl A[main_v33] A[main_v34] _ _ _ _ _ _ n k).trans ?_
  unfold cur3
  rw [s2_eq m c n, cur2_row m c n]

theorem stk3_eq : A[main_v39] (ix2 n 0) = stk3 (rowOf A[main_arg0] n) (rowOf A[main_arg1] n) := by
  read2 47; read2 46; read1 45; read2 44; read1 42; read0 43
  refine (Columns.sticky_step_apply 49 8 rfl A[main_v33] A[main_v34] A[main_v23] _ _ (by decide) _ _ n).trans ?_
  unfold stk3
  rw [s2_eq m c n, cur2_row m c n, stk2_eq m c n]

/-! ## Layer 4 (positions 60 to 78): the row moves by 4, the sticky value looks at columns 53 to 56 -/

theorem s3_eq : A[main_v50] (ix2 n 0) = rowOf A[main_arg1] n 3 := by
  read1 60
  exact ctrl_apply n A[main_arg1] 3 (by omega) _

theorem cur4_row : rowOf A[main_v65] n = cur4 (rowOf A[main_arg0] n) (rowOf A[main_arg1] n) := by
  funext k
  show A[main_v65] (ix2 n k) = _
  read2 78; read2 72; read1 71; read2 70; read1 68; read0 67; read1 69; read2 77; read1 76; read2 75; read1 74; read0 73
  refine (Columns.layer_apply 4 53 rfl A[main_v49] A[main_v50] _ _ _ _ _ _ n k).trans ?_
  unfold cur4
  rw [s3_eq m c n, cur3_row m c n]

theorem stk4_eq : A[main_v55] (ix2 n 0) = stk4 (rowOf A[main_arg0] n) (rowOf A[main_arg1] n) := by
  read2 66; read2 65; read1 64; read2 63; read1 61; read0 62
  refine (Columns.sticky_step_apply 53 4 rfl A[main_v49] A[main_v50] A[main_v39] _ _ (by decide) _ _ n).trans ?_
  unfold stk4
  rw [s3_eq m c n, cur3_row m c n, stk3_eq m c n]

/-! ## Layer 5 (positions 79 to 97): the row moves by 2, the sticky value looks at columns 55 and 56 -/

theorem s4_eq : A[main_v66] (ix2 n 0) = rowOf A[main_arg1] n 4 := by
  read1 79
  exact ctrl_apply n A[main_arg1] 4 (by omega) _

theorem cur5_row : rowOf A[main_v81] n = cur5 (rowOf A[main_arg0] n) (rowOf A[main_arg1] n) := by
  funext k
  show A[main_v81] (ix2 n k) = _
  read2 97; read2 91; read1 90; read2 89; read1 87; read0 86; read1 88; read2 96; read1 95; read2 94; read1 93; read0 92
  refine (Columns.layer_apply 2 55 rfl A[main_v65] A[main_v66] _ _ _ _ _ _ n k).trans ?_
  unfold cur5
  rw [s4_eq m c n, cur4_row m c n]

theorem stk5_eq : A[main_v71] (ix2 n 0) = stk5 (rowOf A[main_arg0] n) (rowOf A[main_arg1] n) := by
  read2 85; read2 84; read1 83; read2 82; read1 80; read0 81
  refine (Columns.sticky_step_apply 55 2 rfl A[main_v65] A[main_v66] A[main_v55] _ _ (by decide) _ _ n).trans ?_
  unfold stk5
  rw [s4_eq m c n, cur4_row m c n, stk4_eq m c n]

/-! ## Layer 6 (positions 98 to 116): the row moves by 1, the sticky value looks at column 56 -/

theorem s5_eq : A[main_v82] (ix2 n 0) = rowOf A[main_arg1] n 5 := by
  read1 98
  exact ctrl_apply n A[main_arg1] 5 (by omega) _

theorem cur6_row : rowOf A[main_v97] n = cur6 (rowOf A[main_arg0] n) (rowOf A[main_arg1] n) := by
  funext k
  show A[main_v97] (ix2 n k) = _
  read2 116; read2 110; read1 109; read2 108; read1 106; read0 105; read1 107; read2 115; read1 114; read2 113; read1 112; read0 111
  refine (Columns.layer_apply 1 56 rfl A[main_v81] A[main_v82] _ _ _ _ _ _ n k).trans ?_
  unfold cur6
  rw [s5_eq m c n, cur5_row m c n]

theorem stk6_eq : A[main_v87] (ix2 n 0) = stk6 (rowOf A[main_arg0] n) (rowOf A[main_arg1] n) := by
  read2 104; read2 103; read1 102; read2 101; read1 99; read0 100
  refine (Columns.sticky_step_apply 56 1 rfl A[main_v81] A[main_v82] A[main_v71] _ _ (by decide) _ _ n).trans ?_
  unfold stk6
  rw [s5_eq m c n, cur5_row m c n, stk5_eq m c n]

/-! ## The two results -/

/-- No operation writes an argument: the line leaves both as launched. -/
theorem arg0_eq : A[main_arg0] = m ((c.tc : Thread nD τ).loc main_arg0) := Writes.arg RefLine.hW _ (by decide)
theorem arg1_eq : A[main_arg1] = m ((c.tc : Thread nD τ).loc main_arg1) := Writes.arg RefLine.hW _ (by decide)

/-- The first result of the reference is the shifted array of the arguments. -/
theorem result_shifted : A[main_v97]
    = shifted (m ((c.tc : Thread nD τ).loc main_arg0)) (m ((c.tc : Thread nD τ).loc main_arg1)) := by
  funext i
  obtain ⟨n, k, rfl⟩ : ∃ (n : Fin 1000000) (k : Fin 57), i = ix2 n k := ⟨i 0, i 1, eq_ix2 i⟩
  have h := congrFun (cur6_row m c n) k
  rw [arg0_eq m c, arg1_eq m c] at h
  exact h

/-- The second result of the reference is the sticky column of the arguments. -/
theorem result_sticky : A[main_v87]
    = sticky (m ((c.tc : Thread nD τ).loc main_arg0)) (m ((c.tc : Thread nD τ).loc main_arg1)) := by
  funext i
  obtain ⟨n, u, rfl⟩ : ∃ (n : Fin 1000000) (u : Fin 1), i = ix2 n u := ⟨i 0, i 1, eq_ix2 i⟩
  have hu : u = 0 := Subsingleton.elim _ _
  subst hu
  have h := stk6_eq m c n
  rw [arg0_eq m c, arg1_eq m c] at h
  exact h

end Cert.Barrel.Reference

end
-- ==== Proof.LibLayout.lean ====
/-
  Two column layouts of small arrays read at an index: a vector viewed as a one-column matrix, and a one-column
  matrix repeated along its rows' second axis. (The library has the row forms; these are the column forms a
  keep-dimensions row reduction produces.)
-/
import Idealize.ShloMosaic.Lib.Pipeline.Value
import Idealize.ShloMosaic.Lib.ValueIdx

namespace Cert.Attn.Layout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Attn.Layout
-- ==== Proof.Lanes.lean ====
/-
  The kernel's vector operations on an [N, 57] value, read at one entry (n, k) in terms of row n.

  The kernel shifts a row by rotating it along the lanes and then blanking, with a lane-index mask, the lanes that the
  rotation brought around the end: at lane k ≥ a the rotated value is the row's entry k − a, and lanes k < a are set to
  zero. That is the zero-filled shift. A layer combines it with the control column broadcast along the lanes; the sticky
  step takes the maximum over the last lanes of the row.
-/
import Idealize.ShloMosaic.PureOps.Ideal.Laws
import Idealize.ShloMosaic.Lib.KernelVsHost
import Idealize.ShloMosaic.Lib.Pipeline.Value
import Idealize.ShloMosaic.Lib.ValueIdx
import Idealize.ShloMosaic.Lib.WordArith
import Idealize.ShloMosaic.Lib.Affine
import proofs.«176717_j76312978916098_2_alg».proof.Proof.Spec
import proofs.«176717_j76312978916098_2_alg».proof.Proof.LibLayout
import proofs.«176717_j76312978916098_2_alg».proof.Proof.LibLayoutCols

noncomputable section

namespace Cert.Barrel.Lanes

open Idealize.ShloMosaic Idealize.ShloMosaic.ValueIdx Cert.Barrel

variable {N : ℕ}

/-- The lane-index comparison "lane ≥ a" as a one-bit word, for a lane and an amount below 57. -/
theorem lane_ge_word (a k : ℕ) (ha : a < 57) (hk : k < 57) :
    IntOp.cmpi .sge (BitVec.ofNat 32 k) (BitVec.ofNat 32 a) = if a ≤ k then 1#1 else 0#1 := by
  have ea : (BitVec.ofNat 32 a).toInt = a := WordArith.toInt_ofNat_small a (by omega)
  have ek : (BitVec.ofNat 32 k).toInt = k := WordArith.toInt_ofNat_small k (by omega)
  by_cases h : a ≤ k
  · rw [if_pos h]
    exact IntOp.cmpi_sge.mpr (by rw [ea, ek]; omega)
  · rw [if_neg h]
    refine eq_zero_of_ne_one fun h1 => h ?_
    have := IntOp.cmpi_sge.mp h1
    rw [ea, ek] at this
    omega

/-- Rotate the lanes by `a`, then keep lane k where k ≥ a and put zero elsewhere: entry (n, k) is the row's entry k − a
    from lane a on, and zero before it. -/
theorem rotate_mask_apply (a : ℕ) (ha : a < 57) (cur : (⟨2, ![N, 57]⟩ : Shape).Idx → Ideal .f32)
    (hrot : (⟨2, ![N, 57]⟩ : Shape).Rotates 1 none) (hio : (⟨2, ![N, 57]⟩ : Shape).Iotas .tc 32 [1])
    (n : Fin N) (k : Fin 57) :
    select (cmpi .sge (iota .tc ⟨2, ![N, 57]⟩ 32 [1] hio) (broadcast ⟨2, ![N, 57]⟩ (BitVec.ofNat 32 a)))
        (dynamicRotate 1 (BitVec.ofNat 32 a) none cur hrot)
        (broadcast ⟨2, ![N, 57]⟩ (Scalar.ofBits (F := Ideal) .f32 0x00000000#32)) (ix2 n k)
      = shiftRow a (rowOf cur n) k := by
  have hk := k.isLt
  have hio' : iota .tc ⟨2, ![N, 57]⟩ 32 [1] hio (ix2 n k) = BitVec.ofNat 32 k.val :=
    iota_single_apply .tc ⟨2, ![N, 57]⟩ 32 1 hio (ix2 n k)
  show Scalar.select (IntOp.cmpi .sge (iota .tc ⟨2, ![N, 57]⟩ 32 [1] hio (ix2 n k)) (BitVec.ofNat 32 a))
    (dynamicRotate 1 (BitVec.ofNat 32 a) none cur hrot (ix2 n k)) (Scalar.ofBits (F := Ideal) .f32 0x00000000#32) = _
  rw [hio', lane_ge_word a k.val ha hk]
  unfold shiftRow
  by_cases h : a ≤ k.val
  · rw [if_pos h, dif_pos h, select_one]
    refine dynamicRotate_apply (1 : Fin 2) _ cur hrot (ix2 n k) (ix2 n (⟨k.val - a, by omega⟩ : Fin 57)) fun b => ?_
    match b with
    | ⟨0, _⟩ => rfl
    | ⟨1, _⟩ =>
      show k.val - a = (k.val + 57 - (BitVec.ofNat 32 a).toNat % 57) % 57
      rw [BitVec.toNat_ofNat]
      omega
  · rw [if_neg h, dif_neg h, select_zero]

/-- One layer read at (n, k): s · shifted + (1 − s) · row, with `s` the control column's entry of row n. -/
theorem layer_apply (a : ℕ) (ha : a < 57) (cur : (⟨2, ![N, 57]⟩ : Shape).Idx → Ideal .f32)
    (s : (⟨2, ![N, 1]⟩ : Shape).Idx → Ideal .f32)
    (hrot : (⟨2, ![N, 57]⟩ : Shape).Rotates 1 none) (hio : (⟨2, ![N, 57]⟩ : Shape).Iotas .tc 32 [1])
    (hb : (⟨2, ![N, 1]⟩ : Shape).Broadcasts ⟨2, ![N, 57]⟩) (n : Fin N) (k : Fin 57) :
    addf (F := Ideal) (φ := .f32)
        (mulf (F := Ideal) (φ := .f32) (broadcastTo ⟨2, ![N, 57]⟩ s hb)
          (select (cmpi .sge (iota .tc ⟨2, ![N, 57]⟩ 32 [1] hio) (broadcast ⟨2, ![N, 57]⟩ (BitVec.ofNat 32 a)))
            (dynamicRotate 1 (BitVec.ofNat 32 a) none cur hrot)
            (broadcast ⟨2, ![N, 57]⟩ (Scalar.ofBits (F := Ideal) .f32 0x00000000#32))))
        (mulf (F := Ideal) (φ := .f32)
          (broadcastTo ⟨2, ![N, 57]⟩
            (subf (F := Ideal) (φ := .f32) (broadcast ⟨2, ![N, 1]⟩ (Scalar.ofBits (F := Ideal) .f32 0x3F800000#32)) s) hb)
          cur) (ix2 n k)
      = stepRow a (s (ix2 n 0)) (rowOf cur n) k := by
  unfold stepRow
  refine congrArg₂ (FloatOps.addf (F := Ideal) (φ := .f32))
    (congrArg₂ (FloatOps.mulf (F := Ideal) (φ := .f32)) ?_ ?_) (congrArg₂ (FloatOps.mulf (F := Ideal) (φ := .f32)) ?_ rfl)
  · exact Cert.Attn.Layout.broadcastTo_a1_ab_apply s hb n k
  · exact rotate_mask_apply a ha cur hrot hio n k
  · exact Cert.Attn.Layout.broadcastTo_a1_ab_apply _ hb n k

/-- Column l of the control bits, sliced out as a one-column value, has in row n the control bit l of row n. -/
theorem ctrl_apply (l : ℕ) (hl : l < 6) (S : (⟨2, ![N, 6]⟩ : Shape).Idx → Ideal .f32)
    (h : (⟨2, ![N, 6]⟩ : Shape).Slices ![0, l] ⟨2, ![N, 1]⟩) (n : Fin N) :
    extractStridedSlice ⟨2, ![N, 1]⟩ ![0, l] S h (ix2 n 0) = rowOf S n ⟨l, hl⟩ :=
  (Cert.RefLayout.slice_cols_apply l h S n 0 (by show l + 0 < 6; omega)).trans
    (congrArg S (congrArg (ix2 n) (Fin.ext (by show l + 0 = l; omega))))

/-- The coordinate that a reduction over the lanes removed, put back: row n with lane k. -/
theorem lift_lane {a : ℕ} (h : (⟨2, ![N, a]⟩ : Shape).Reduces [1] (⟨1, ![N]⟩ : Shape)) (n : Fin N)
    (k : Fin ((⟨2, ![N, a]⟩ : Shape).size 1)) : h.lift (ix1 n) k = ix2 n (⟨k.val, k.isLt⟩ : Fin a) := by
  funext c; apply Fin.ext
  fin_cases c <;> rfl

/-- The maximum over the lanes of columns o, …, o + a − 1 of the value, from −∞, at row n: the largest of the row's
    last `a` entries. -/
theorem laneMax_apply (o a : ℕ) (hoa : o + a = 57) (cur : FVec Ideal ⟨2, ![N, 57]⟩ .f32)
    (hsl : (⟨2, ![N, 57]⟩ : Shape).Slices ![0, o] ⟨2, ![N, a]⟩)
    (hred : (⟨2, ![N, a]⟩ : Shape).Reduces [1] (⟨1, ![N]⟩ : Shape)) (hφ : FKind.Formats .f32)
    (hacc : (0xFF800000#32 : BitVec 32) = FKind.maximumf.neutral .f32 hφ) (n : Fin N) :
    multiReduction (F := Ideal) .maximumf [1] ⟨1, ![N]⟩ (extractStridedSlice ⟨2, ![N, a]⟩ ![0, o] cur hsl)
        0xFF800000#32 hred hφ hacc (ix1 n)
      = tailMax o a hoa (rowOf cur n) := by
  refine (Ideal.multiReduction_maximumf_single (extractStridedSlice ⟨2, ![N, a]⟩ ![0, o] cur hsl) _ hred hφ hacc
    (ix1 n)).trans ?_
  unfold tailMax
  refine congrArg (fun f => Finset.fold max (FloatOps.ofBits (F := Ideal) .f32 0xFF800000#32) f
    (Finset.univ : Finset (Fin a))) (funext fun k => ?_)
  show extractStridedSlice ⟨2, ![N, a]⟩ ![0, o] cur hsl (hred.lift (ix1 n) k) = _
  rw [lift_lane hred n k]
  exact Cert.RefLayout.slice_cols_apply o hsl cur n ⟨k.val, k.isLt⟩ (by have := k.isLt; omega)

/-- One sticky step read at (n, 0): max(sticky, s · largest of the row's last `a` entries). -/
theorem sticky_step_apply (o a : ℕ) (hoa : o + a = 57) (cur : FVec Ideal ⟨2, ![N, 57]⟩ .f32)
    (s acc : (⟨2, ![N, 1]⟩ : Shape).Idx → Ideal .f32)
    (hsl : (⟨2, ![N, 57]⟩ : Shape).Slices ![0, o] ⟨2, ![N, a]⟩)
    (hred : (⟨2, ![N, a]⟩ : Shape).Reduces [1] (⟨1, ![N]⟩ : Shape)) (hφ : FKind.Formats .f32)
    (hacc : (0xFF800000#32 : BitVec 32) = FKind.maximumf.neutral .f32 hφ)
    (hsc : (⟨1, ![N]⟩ : Shape).ShapeCasts ⟨2, ![N, 1]⟩) (n : Fin N) :
    maximumf (F := Ideal) (φ := .f32) acc
        (mulf (F := Ideal) (φ := .f32) s
          (shapeCast ⟨2, ![N, 1]⟩
            (multiReduction (F := Ideal) .maximumf [1] ⟨1, ![N]⟩ (extractStridedSlice ⟨2, ![N, a]⟩ ![0, o] cur hsl)
              0xFF800000#32 hred hφ hacc) hsc)) (ix2 n 0)
      = stepSticky o a hoa (s (ix2 n 0)) (rowOf cur n) (acc (ix2 n 0)) := by
  unfold stepSticky
  refine congrArg (fun z => FloatOps.maximumf (F := Ideal) (φ := .f32) (acc (ix2 n 0))
    (FloatOps.mulf (F := Ideal) (φ := .f32) (s (ix2 n 0)) z)) ?_
  exact (Cert.Attn.Layout.shapeCast_a_a1_apply _ hsc n 0).trans (laneMax_apply o a hoa cur hsl hred hφ hacc n)

end Cert.Barrel.Lanes

end
-- ==== Proof.Body.lean ====
/-
  The kernel's body on one block of 4000 rows is the specification on that block.

  The body's arithmetic is a chain of named values: the row block after each layer and the sticky column after each
  layer. Read row by row with the lemmas for the kernel's vector operations, the value stored to the first output is
  the block's rows after the sixth layer, and the value stored to the second output is the sticky column after it.
-/
import proofs.«176717_j76312978916098_2_alg».proof.Proof.Gen.KernelIdeal.Skeleton
import proofs.«176717_j76312978916098_2_alg».proof.Proof.Lanes

noncomputable section

namespace Cert.Barrel.Body

open Idealize.ShloMosaic Idealize.ShloMosaic.ValueIdx Cert.Barrel
open Cert.KernelIdeal Cert.KernelIdeal.Gen

variable (v0 : (⟨2, ![4000, 57]⟩ : Shape).Idx → Ideal .f32) (v1 : (⟨2, ![4000, 6]⟩ : Shape).Idx → Ideal .f32)
variable (r : Fin 4000)

/-! ## The six control columns -/

theorem pay5_at : k0_pay5 (F := Ideal) v1 (ix2 r 0) = rowOf v1 r 0 := by
  unfold k0_pay5
  exact Lanes.ctrl_apply 0 (by omega) v1 _ r

theorem pay7_at : k0_pay7 (F := Ideal) v1 (ix2 r 0) = rowOf v1 r 1 := by
  unfold k0_pay7
  exact Lanes.ctrl_apply 1 (by omega) v1 _ r

theorem pay10_at : k0_pay10 (F := Ideal) v1 (ix2 r 0) = rowOf v1 r 2 := by
  unfold k0_pay10
  exact Lanes.ctrl_apply 2 (by omega) v1 _ r

theorem pay13_at : k0_pay13 (F := Ideal) v1 (ix2 r 0) = rowOf v1 r 3 := by
  unfold k0_pay13
  exact Lanes.ctrl_apply 3 (by omega) v1 _ r

theorem pay15_at : k0_pay15 (F := Ideal) v1 (ix2 r 0) = rowOf v1 r 4 := by
  unfold k0_pay15
  exact Lanes.ctrl_apply 4 (by omega) v1 _ r

theorem pay2_at : k0_pay2 (F := Ideal) v1 (ix2 r 0) = rowOf v1 r 5 := by
  unfold k0_pay2
  exact Lanes.ctrl_apply 5 (by omega) v1 _ r

/-! ## The block's rows after each layer -/

/-- After layer 1 (the rows move by 32). -/
theorem pay6_row : rowOf (k0_pay6 (F := Ideal) v0 v1) r = cur1 (rowOf v0 r) (rowOf v1 r) := by
  funext k
  show k0_pay6 (F := Ideal) v0 v1 (ix2 r k) = _
  unfold k0_pay6
  refine (Lanes.layer_apply 32 (by omega) v0 (k0_pay5 (F := Ideal) v1) _ _ _ r k).trans ?_
  unfold cur1
  rw [pay5_at]

/-- After layer 2 (the rows move by 16). -/
theorem pay9_row : rowOf (k0_pay9 (F := Ideal) v0 v1) r = cur2 (rowOf v0 r) (rowOf v1 r) := by
  funext k
  show k0_pay9 (F := Ideal) v0 v1 (ix2 r k) = _
  unfold k0_pay9
  refine (Lanes.layer_apply 16 (by omega) (k0_pay6 (F := Ideal) v0 v1) (k0_pay7 (F := Ideal) v1) _ _ _ r k).trans ?_
  unfold cur2
  rw [pay7_at, pay6_row]

section Later
variable (v40 : (⟨2, ![4000, 57]⟩ : Shape).Idx → Ideal .f32) (v41 : (⟨2, ![4000, 1]⟩ : Shape).Idx → Ideal .f32)

/-- Layer 3 (the rows move by 8), on any row block and control column. -/
theorem pay12_row : rowOf (k0_pay12 (F := Ideal) v40 v41) r = stepRow 8 (v41 (ix2 r 0)) (rowOf v40 r) := by
  funext k
  show k0_pay12 (F := Ideal) v40 v41 (ix2 r k) = _
  unfold k0_pay12
  exact Lanes.layer_apply 8 (by omega) v40 v41 _ _ _ r k

/-- Layer 4 (the rows move by 4) after it. -/
theorem pay14_row : rowOf (k0_pay14 (F := Ideal) v1 v40 v41) r
    = stepRow 4 (rowOf v1 r 3) (stepRow 8 (v41 (ix2 r 0)) (rowOf v40 r)) := by
  funext k
  show k0_pay14 (F := Ideal) v1 v40 v41 (ix2 r k) = _
  unfold k0_pay14
  refine (Lanes.layer_apply 4 (by omega) (k0_pay12 (F := Ideal) v40 v41) (k0_pay13 (F := Ideal) v1) _ _ _ r k).trans ?_
  rw [pay13_at, pay12_row]

/-- Layer 5 (the rows move by 2): the body names its rotation, its lane mask and its zeros as separate values. -/
theorem pay1_row : rowOf (k0_pay1 (F := Ideal) (k0_pay14 (F := Ideal) v1 v40 v41) (k0_pay15 (F := Ideal) v1)
      (k0_pay17 (F := Ideal) v1 v40 v41) k0_pay18 (k0_pay19 (F := Ideal))) r
    = stepRow 2 (rowOf v1 r 4) (rowOf (k0_pay14 (F := Ideal) v1 v40 v41) r) := by
  funext k
  show k0_pay1 (F := Ideal) (k0_pay14 (F := Ideal) v1 v40 v41) (k0_pay15 (F := Ideal) v1)
      (k0_pay17 (F := Ideal) v1 v40 v41) k0_pay18 (k0_pay19 (F := Ideal)) (ix2 r k) = _
  unfold k0_pay1 k0_pay17 k0_pay18 k0_pay19
  refine (Lanes.layer_apply 2 (by omega) (k0_pay14 (F := Ideal) v1 v40 v41) (k0_pay15 (F := Ideal) v1) _ _ _ r k).trans ?_
  rw [pay15_at]

/-- Layer 6 (the rows move by 1). -/
theorem pay4_row : rowOf (k0_pay4 (F := Ideal) v1 (k0_pay14 (F := Ideal) v1 v40 v41) (k0_pay15 (F := Ideal) v1)
      (k0_pay17 (F := Ideal) v1 v40 v41) k0_pay18 (k0_pay19 (F := Ideal))) r
    = stepRow 1 (rowOf v1 r 5) (stepRow 2 (rowOf v1 r 4) (rowOf (k0_pay14 (F := Ideal) v1 v40 v41) r)) := by
  funext k
  show k0_pay4 (F := Ideal) v1 (k0_pay14 (F := Ideal) v1 v40 v41) (k0_pay15 (F := Ideal) v1)
      (k0_pay17 (F := Ideal) v1 v40 v41) k0_pay18 (k0_pay19 (F := Ideal)) (ix2 r k) = _
  unfold k0_pay4
  refine (Lanes.layer_apply 1 (by omega)
    (k0_pay1 (F := Ideal) (k0_pay14 (F := Ideal) v1 v40 v41) (k0_pay15 (F := Ideal) v1)
      (k0_pay17 (F := Ideal) v1 v40 v41) k0_pay18 (k0_pay19 (F := Ideal)))
    (k0_pay2 (F := Ideal) v1) _ _ _ r k).trans ?_
  rw [pay2_at, pay1_row]

end Later

/-- The value stored to the first output is the shifted block. -/
theorem stored_shifted :
    k0_pay4 (F := Ideal) v1 (k0_pay14 (F := Ideal) v1 (k0_pay9 (F := Ideal) v0 v1) (k0_pay10 (F := Ideal) v1))
        (k0_pay15 (F := Ideal) v1) (k0_pay17 (F := Ideal) v1 (k0_pay9 (F := Ideal) v0 v1) (k0_pay10 (F := Ideal) v1))
        k0_pay18 (k0_pay19 (F := Ideal))
      = shifted v0 v1 := by
  funext i
  obtain ⟨r, k, rfl⟩ : ∃ (r : Fin 4000) (k : Fin 57), i = ix2 r k := ⟨i 0, i 1, eq_ix2 i⟩
  rw [shifted_apply]
  refine (congrFun (pay4_row v1 r (k0_pay9 (F := Ideal) v0 v1) (k0_pay10 (F := Ideal) v1)) k).trans ?_
  rw [pay14_row, pay9_row, pay10_at]
  rfl

/-! ## The sticky column after each layer -/

/-- After layers 1 and 2. -/
theorem pay8_at : k0_pay8 (F := Ideal) v0 v1 (ix2 r 0) = stk2 (rowOf v0 r) (rowOf v1 r) := by
  unfold k0_pay8
  refine (Lanes.sticky_step_apply 41 16 rfl (k0_pay6 (F := Ideal) v0 v1) (k0_pay7 (F := Ideal) v1) _ _ _ _ _ _ r).trans ?_
  unfold stk2
  rw [pay7_at, pay6_row]
  refine congrArg (stepSticky 41 16 rfl (rowOf v1 r 1) (cur1 (rowOf v0 r) (rowOf v1 r))) ?_
  refine (Lanes.sticky_step_apply 25 32 rfl v0 (k0_pay5 (F := Ideal) v1) _ _ _ _ _ _ r).trans ?_
  unfold stk1
  rw [pay5_at]
  rfl

section Later
variable (v27 : (⟨2, ![4000, 1]⟩ : Shape).Idx → Ideal .f32)
variable (v40 : (⟨2, ![4000, 57]⟩ : Shape).Idx → Ideal .f32) (v41 : (⟨2, ![4000, 1]⟩ : Shape).Idx → Ideal .f32)

/-- Layers 3, 4 and 5 on the sticky column, from any earlier sticky column; the body hands layer 3 its slice of the
    rows (columns 49 to 56) as a value of its own. -/
theorem pay16_at :
    k0_pay16 (F := Ideal) v1 v27 v40 v41 (extractStridedSlice S4000x8 ![0, 49] v40 slices_S4000x57_o0_49_S4000x8) (ix2 r 0)
      = stepSticky 55 2 rfl (rowOf v1 r 4) (rowOf (k0_pay14 (F := Ideal) v1 v40 v41) r)
          (stepSticky 53 4 rfl (rowOf v1 r 3) (rowOf (k0_pay12 (F := Ideal) v40 v41) r)
            (stepSticky 49 8 rfl (v41 (ix2 r 0)) (rowOf v40 r) (v27 (ix2 r 0)))) := by
  unfold k0_pay16
  refine (Lanes.sticky_step_apply 55 2 rfl (k0_pay14 (F := Ideal) v1 v40 v41) (k0_pay15 (F := Ideal) v1) _ _ _ _ _ _ r).trans ?_
  rw [pay15_at]
  refine congrArg (stepSticky 55 2 rfl (rowOf v1 r 4) (rowOf (k0_pay14 (F := Ideal) v1 v40 v41) r)) ?_
  refine (Lanes.sticky_step_apply 53 4 rfl (k0_pay12 (F := Ideal) v40 v41) (k0_pay13 (F := Ideal) v1) _ _ _ _ _ _ r).trans ?_
  rw [pay13_at]
  refine congrArg (stepSticky 53 4 rfl (rowOf v1 r 3) (rowOf (k0_pay12 (F := Ideal) v40 v41) r)) ?_
  exact Lanes.sticky_step_apply 49 8 rfl v40 v41 v27 _ _ _ _ _ r

end Later

section Last
variable (v78 : (⟨2, ![4000, 57]⟩ : Shape).Idx → Ideal .f32) (v79 v84 : (⟨2, ![4000, 1]⟩ : Shape).Idx → Ideal .f32)
variable (v85 : (⟨2, ![4000, 57]⟩ : Shape).Idx → Ideal .f32) (v88 : IVec ⟨2, ![4000, 57]⟩ 1)
variable (v89 : (⟨2, ![4000, 57]⟩ : Shape).Idx → Ideal .f32)

/-- Layer 6 on the sticky column, whatever the values before it. -/
theorem pay3_at : k0_pay3 (F := Ideal) v1 v78 v79 v84 v85 v88 v89 (ix2 r 0)
    = stepSticky 56 1 rfl (rowOf v1 r 5) (rowOf (k0_pay1 (F := Ideal) v78 v79 v85 v88 v89) r) (v84 (ix2 r 0)) := by
  unfold k0_pay3
  refine (Lanes.sticky_step_apply 56 1 rfl (k0_pay1 (F := Ideal) v78 v79 v85 v88 v89) (k0_pay2 (F := Ideal) v1) v84
    _ _ _ _ _ r).trans ?_
  rw [pay2_at]

end Last

/-- The value stored to the second output is the block's sticky column. -/
theorem stored_sticky :
    k0_pay3 (F := Ideal) v1 (k0_pay14 (F := Ideal) v1 (k0_pay9 (F := Ideal) v0 v1) (k0_pay10 (F := Ideal) v1))
        (k0_pay15 (F := Ideal) v1)
        (k0_pay16 (F := Ideal) v1 (k0_pay8 (F := Ideal) v0 v1) (k0_pay9 (F := Ideal) v0 v1) (k0_pay10 (F := Ideal) v1)
          (k0_pay11 (F := Ideal) v0 v1))
        (k0_pay17 (F := Ideal) v1 (k0_pay9 (F := Ideal) v0 v1) (k0_pay10 (F := Ideal) v1)) k0_pay18 (k0_pay19 (F := Ideal))
      = sticky v0 v1 := by
  funext i
  obtain ⟨r, u, rfl⟩ : ∃ (r : Fin 4000) (u : Fin 1), i = ix2 r u := ⟨i 0, i 1, eq_ix2 i⟩
  have hu : u = 0 := Subsingleton.elim _ _
  subst hu
  rw [sticky_apply]
  refine (pay3_at v1 r _ _ _ _ _ _).trans ?_
  rw [pay1_row]
  have e11 : k0_pay11 (F := Ideal) v0 v1
      = extractStridedSlice S4000x8 ![0, 49] (k0_pay9 (F := Ideal) v0 v1) slices_S4000x57_o0_49_S4000x8 := rfl
  rw [e11, pay16_at, pay14_row, pay12_row, pay9_row, pay10_at, pay8_at]
  rfl

end Cert.Barrel.Body

end
-- ==== Proof.Blocks.lean ====
/-
  From the blocks to the arrays.

  The kernel runs on 250 blocks of 4000 rows; at point t every window — the data, the control bits and both results —
  is at block t of its array, so entry (r, k) of a block is entry (4000·t + r, k) of the array. The specification
  computes each row from that same row of the arguments, so what point t writes back is block t of the specification
  of the whole argument arrays; and the 250 blocks cover every row (row n lies in block n / 4000). Hence after the run
  the two result arrays are the specification of the argument arrays.
-/
import proofs.«176717_j76312978916098_2_alg».proof.Proof.Gen.KernelIdeal.Value
import proofs.«176717_j76312978916098_2_alg».proof.Proof.Body

noncomputable section

namespace Cert.Barrel.Blocks

open Cert.KernelIdeal Cert.KernelIdeal.Gen Idealize.ShloMosaic Idealize.ShloMosaic.TcCoe Idealize.SL.Sem
open Idealize.ShloMosaic.ValueIdx Cert.Barrel
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl

/-! ## The body's two results on any pair of loaded blocks -/

/-- What the body leaves in the first output's buffer is the shifted block. -/
theorem out2_eq (x0 : Vec Ideal S4000x57 .f32) (x1 : Vec Ideal S4000x6 .f32) :
    out0_2 (F := Ideal) x0 x1 = shifted x0 x1 := by
  unfold out0_2
  rw [View.canon_unit_zero zeros2]
  simp only [View.ld_unit_zero (S := S4000x57) zeros2, View.ld_unit_zero (S := S4000x6) zeros2]
  exact Body.stored_shifted x0 x1

/-- What the body leaves in the second output's buffer is the block's sticky column. -/
theorem out3_eq (x0 : Vec Ideal S4000x57 .f32) (x1 : Vec Ideal S4000x6 .f32) :
    out0_3 (F := Ideal) x0 x1 = sticky x0 x1 := by
  unfold out0_3
  rw [View.canon_unit_zero zeros2]
  simp only [View.ld_unit_zero (S := S4000x57) zeros2, View.ld_unit_zero (S := S4000x6) zeros2]
  exact Body.stored_sticky x0 x1

/-! ## A block's rows are rows of the array -/

/-- The specification only looks at one row: if row (i 0) of the two blocks is row (j 0) of the two arrays, and the
    two indices name the same column, the shifted block at i is the shifted array at j. -/
theorem shifted_of_rows {N : ℕ} (xb : (⟨2, ![4000, 57]⟩ : Shape).Idx → Ideal .f32) (sb : (⟨2, ![4000, 6]⟩ : Shape).Idx → Ideal .f32)
    (X : (⟨2, ![N, 57]⟩ : Shape).Idx → Ideal .f32) (S : (⟨2, ![N, 6]⟩ : Shape).Idx → Ideal .f32)
    (i : (⟨2, ![4000, 57]⟩ : Shape).Idx) (j : (⟨2, ![N, 57]⟩ : Shape).Idx)
    (hx : ∀ k : Fin 57, xb (ix2 (i 0) k) = X (ix2 (j 0) k)) (hs : ∀ l : Fin 6, sb (ix2 (i 0) l) = S (ix2 (j 0) l))
    (h1 : (i 1).val = (j 1).val) : shifted xb sb i = shifted X S j := by
  unfold shifted
  have ex : rowOf xb (i 0) = rowOf X (j 0) := funext hx
  have es : rowOf sb (i 0) = rowOf S (j 0) := funext hs
  have e1 : (i 1 : Fin 57) = (j 1 : Fin 57) := Fin.ext h1
  rw [ex, es, e1]

/-- The same for the sticky column. -/
theorem sticky_of_rows {N : ℕ} (xb : (⟨2, ![4000, 57]⟩ : Shape).Idx → Ideal .f32) (sb : (⟨2, ![4000, 6]⟩ : Shape).Idx → Ideal .f32)
    (X : (⟨2, ![N, 57]⟩ : Shape).Idx → Ideal .f32) (S : (⟨2, ![N, 6]⟩ : Shape).Idx → Ideal .f32)
    (i : (⟨2, ![4000, 1]⟩ : Shape).Idx) (j : (⟨2, ![N, 1]⟩ : Shape).Idx)
    (hx : ∀ k : Fin 57, xb (ix2 (i 0) k) = X (ix2 (j 0) k)) (hs : ∀ l : Fin 6, sb (ix2 (i 0) l) = S (ix2 (j 0) l)) :
    sticky xb sb i = sticky X S j := by
  unfold sticky
  have ex : rowOf xb (i 0) = rowOf X (j 0) := funext hx
  have es : rowOf sb (i 0) = rowOf S (j 0) := funext hs
  rw [ex, es]

/-! ## The windows' positions -/

/-- The printed index maps, decided over the 250 points: every window is at block t along the rows and at block 0
    along the columns. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row (y0) of the data block at point t is row 4000·t + y0 of the data array. -/
theorem data_row (c : Dev nD) (t : Fin cfg0.N) (y0 : Fin 4000) (k : Fin 57) (j0 : Fin 1000000)
    (hj : j0.val = t.val * 4000 + y0.val) :
    iblk m c 0 t (ix2 y0 k) = V m c main_arg0 (ix2 j0 k) := by
  obtain ⟨e0, e1, -, -, -, -, -, -⟩ := idx_facts t
  show V m c main_arg0 (((cfg0.win 0).blk t).view.emb (ix2 y0 k)) = V m c main_arg0 (ix2 j0 k)
  refine congrArg (V m c main_arg0) (funext fun a => Fin.ext ?_)
  match a with
  | ⟨0, _⟩ => show win0_0.index t (0 : Fin 2) * 4000 + 1 * y0.val = j0.val; omega
  | ⟨1, _⟩ => show win0_0.index t (1 : Fin 2) * 57 + 1 * k.val = k.val; omega

/-- Row (y0) of the control block at point t is row 4000·t + y0 of the control array. -/
theorem ctrl_row (c : Dev nD) (t : Fin cfg0.N) (y0 : Fin 4000) (l : Fin 6) (j0 : Fin 1000000)
    (hj : j0.val = t.val * 4000 + y0.val) :
    iblk m c 1 t (ix2 y0 l) = V m c main_arg1 (ix2 j0 l) := by
  obtain ⟨-, -, e0, e1, -, -, -, -⟩ := idx_facts t
  show V m c main_arg1 (((cfg0.win 1).blk t).view.emb (ix2 y0 l)) = V m c main_arg1 (ix2 j0 l)
  refine congrArg (V m c main_arg1) (funext fun a => Fin.ext ?_)
  match a with
  | ⟨0, _⟩ => show win0_1.index t (0 : Fin 2) * 4000 + 1 * y0.val = j0.val; omega
  | ⟨1, _⟩ => show win0_1.index t (1 : Fin 2) * 6 + 1 * l.val = l.val; omega

/-! ## What each point writes back -/

/-- Point t writes back block t of the shifted array. -/
theorem flushed2_eq (c : Dev nD) (t : Fin cfg0.N) :
    (dats m 0 c).flushed 2 t
      = ((cfg0.win 2).blk t).view.read (Elt Ideal) (shifted (V m c main_arg0) (V m c main_arg1)) := by
  rw [Cert.KernelIdeal.Value.flushed2, out2_eq (iblk m c 0 t) (iblk m c 1 t)]
  obtain ⟨-, -, -, -, e0, e1, -, -⟩ := idx_facts t
  funext y
  show shifted (iblk m c 0 t) (iblk m c 1 t) y
    = shifted (V m c main_arg0) (V m c main_arg1) (((cfg0.win 2).blk t).view.emb y)
  have h0 : ((((cfg0.win 2).blk t).view.emb y) 0).val = t.val * 4000 + (y 0).val := by
    show win0_2.index t (0 : Fin 2) * 4000 + 1 * (y 0).val = _; omega
  have h1 : ((((cfg0.win 2).blk t).view.emb y) 1).val = (y 1).val := by
    show win0_2.index t (1 : Fin 2) * 57 + 1 * (y 1).val = _; omega
  exact shifted_of_rows _ _ _ _ y _ (fun k => data_row m c t (y 0) k _ h0) (fun l => ctrl_row m c t (y 0) l _ h0) h1.symm

/-- Point t writes back block t of the sticky column. -/
theorem flushed3_eq (c : Dev nD) (t : Fin cfg0.N) :
    (dats m 0 c).flushed 3 t
      = ((cfg0.win 3).blk t).view.read (Elt Ideal) (sticky (V m c main_arg0) (V m c main_arg1)) := by
  rw [Cert.KernelIdeal.Value.flushed3, out3_eq (iblk m c 0 t) (iblk m c 1 t)]
  obtain ⟨-, -, -, -, -, -, e0, e1⟩ := idx_facts t
  funext y
  show sticky (iblk m c 0 t) (iblk m c 1 t) y
    = sticky (V m c main_arg0) (V m c main_arg1) (((cfg0.win 3).blk t).view.emb y)
  have h0 : ((((cfg0.win 3).blk t).view.emb y) 0).val = t.val * 4000 + (y 0).val := by
    show win0_3.index t (0 : Fin 2) * 4000 + 1 * (y 0).val = _; omega
  exact sticky_of_rows _ _ _ _ y _ (fun k => data_row m c t (y 0) k _ h0) (fun l => ctrl_row m c t (y 0) l _ h0)

/-! ## The blocks cover the arrays -/

/-- An index of the first result is in point t's block iff each coordinate is in the block's range on its axis. -/
theorem mem_blk2 (t : Fin cfg0.N) (i : S1000000x57.Idx) :
    i ∈ ((cfg0.win 2).blk t).view.set ↔ ∀ a : Fin 2,
      win0_2.index t a * S4000x57.size a ≤ (i a).val ∧ (i a).val < win0_2.index t a * S4000x57.size a + S4000x57.size a := by
  show i ∈ ((View.whole main_v0_0).slice (win0_2.rect t)).set ↔ _
  rw [View.set_slice_whole, Rect.mem_set_unit]
  exact Iff.rfl

/-- The same for the second result. -/
theorem mem_blk3 (t : Fin cfg0.N) (i : S1000000x1.Idx) :
    i ∈ ((cfg0.win 3).blk t).view.set ↔ ∀ a : Fin 2,
      win0_3.index t a * S4000x1.size a ≤ (i a).val ∧ (i a).val < win0_3.index t a * S4000x1.size a + S4000x1.size a := by
  show i ∈ ((View.whole main_v0_1).slice (win0_3.rect t)).set ↔ _
  rw [View.set_slice_whole, Rect.mem_set_unit]
  exact Iff.rfl

/-- Row n of the first result lies in the block of point n / 4000. -/
theorem cover2 (i : S1000000x57.Idx) :
    ∃ t : Fin cfg0.N, (cfg0.win 2).flush t = true ∧ i ∈ ((cfg0.win 2).blk t).view.set := by
  have hi0 : (i 0).val < 1000000 := (i 0).isLt
  have hi1 : (i 1).val < 57 := (i 1).isLt
  have hN : grid0.N = 250 := N_0
  let t : Fin cfg0.N := ⟨(i 0).val / 4000, by show (i 0).val / 4000 < grid0.N; omega⟩
  have ht : t.val = (i 0).val / 4000 := rfl
  obtain ⟨-, -, -, -, e0, e1, -, -⟩ := idx_facts t
  refine ⟨t, flush0_2 t, ?_⟩
  rw [mem_blk2]
  intro a
  match a with
  | ⟨0, _⟩ =>
    show win0_2.index t (0 : Fin 2) * 4000 ≤ (i 0).val ∧ (i 0).val < win0_2.index t (0 : Fin 2) * 4000 + 4000
    omega
  | ⟨1, _⟩ =>
    show win0_2.index t (1 : Fin 2) * 57 ≤ (i 1).val ∧ (i 1).val < win0_2.index t (1 : Fin 2) * 57 + 57
    omega

/-- Row n of the second result lies in the block of point n / 4000. -/
theorem cover3 (i : S1000000x1.Idx) :
    ∃ t : Fin cfg0.N, (cfg0.win 3).flush t = true ∧ i ∈ ((cfg0.win 3).blk t).view.set := by
  have hi0 : (i 0).val < 1000000 := (i 0).isLt
  have hi1 : (i 1).val < 1 := (i 1).isLt
  have hN : grid0.N = 250 := N_0
  let t : Fin cfg0.N := ⟨(i 0).val / 4000, by show (i 0).val / 4000 < grid0.N; omega⟩
  have ht : t.val = (i 0).val / 4000 := rfl
  obtain ⟨-, -, -, -, -, -, e0, e1⟩ := idx_facts t
  refine ⟨t, flush0_3 t, ?_⟩
  rw [mem_blk3]
  intro a
  match a with
  | ⟨0, _⟩ =>
    show win0_3.index t (0 : Fin 2) * 4000 ≤ (i 0).val ∧ (i 0).val < win0_3.index t (0 : Fin 2) * 4000 + 4000
    omega
  | ⟨1, _⟩ =>
    show win0_3.index t (1 : Fin 2) * 1 ≤ (i 1).val ∧ (i 1).val < win0_3.index t (1 : Fin 2) * 1 + 1
    omega

/-! ## The arrays after the run -/

/-- The first result array ends as the shifted array of the arguments. -/
theorem final2 (c : Dev nD) : (dats m 0 c).arrAt 2 cfg0.N
    = shifted (m ((c : Thread nD τ).loc main_arg0)) (m ((c : Thread nD τ).loc main_arg1)) :=
  (dats m 0 c).arrAt_eq_of_cover 2 (shifted (V m c main_arg0) (V m c main_arg1)) (fun t _ => flushed2_eq m c t) cover2

/-- The second result array ends as the sticky column of the arguments. -/
theorem final3 (c : Dev nD) : (dats m 0 c).arrAt 3 cfg0.N
    = sticky (m ((c : Thread nD τ).loc main_arg0)) (m ((c : Thread nD τ).loc main_arg1)) :=
  (dats m 0 c).arrAt_eq_of_cover 3 (sticky (V m c main_arg0) (V m c main_arg1)) (fun t _ => flushed3_eq m c t) cover3

/-- The kernel's run: every execution ends with the two results at the specification of the arguments, the
    arguments unchanged. -/
theorem run : θ_run defs (onTc (τ := τ) (main (F := Ideal))) ⟨m, fun _ => 0, ρ⟩ fun r => ∀ c : Dev nD,
      r.2.mem ((c : Thread nD τ).loc main_v0_0)
        = shifted (m ((c : Thread nD τ).loc main_arg0)) (m ((c : Thread nD τ).loc main_arg1))
      ∧ r.2.mem ((c : Thread nD τ).loc main_v0_1)
        = sticky (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2.1.trans (final3 m c), (h c).2.2⟩)
    (Cert.KernelIdeal.Value.run_blocks m ρ)

end Cert.Barrel.Blocks

end
-- ==== Proof.lean ====
/-
  The certificate's five claims for the 57-lane barrel shifter with a sticky bit.

  Both programs run six layers over rows of 57 values: each layer either keeps a row or moves it right by 32, 16, 8, 4,
  2 or 1 places (zero-filled), blended by a control value, and accumulates by maximum whether anything was shifted out.
  The kernel does the move by rotating the lanes and masking the wrapped lanes with a lane index; the reference lays
  zeros in front of a column prefix. Read at the exact instance both are the same function of each row — the
  specification (Proof/Spec.lean) — with no algebra beyond reading each operation at an index: the reference operation
  by operation (Proof/Reference.lean), the kernel's body on a block (Proof/Body.lean), and the kernel's 250 blocks of
  4000 rows laid over the arrays (Proof/Blocks.lean). The kernels' frames are their generated frame runs, the
  reference's its line of host operations run to the end; the idealization rewrote nothing.
-/
import proofs.«176717_j76312978916098_2_alg».proof.Defs
import proofs.«176717_j76312978916098_2_alg».proof.Proof.Gen.Kernel
import proofs.«176717_j76312978916098_2_alg».proof.Proof.Gen.Kernel.Skeleton
import proofs.«176717_j76312978916098_2_alg».proof.Proof.Gen.Kernel.Launch
import proofs.«176717_j76312978916098_2_alg».proof.Proof.Gen.Kernel.Points
import proofs.«176717_j76312978916098_2_alg».proof.Proof.Gen.Kernel.Frame
import proofs.«176717_j76312978916098_2_alg».proof.Proof.Gen.KernelIdeal
import proofs.«176717_j76312978916098_2_alg».proof.Proof.Gen.KernelIdeal.Skeleton
import proofs.«176717_j76312978916098_2_alg».proof.Proof.Gen.KernelIdeal.Launch
import proofs.«176717_j76312978916098_2_alg».proof.Proof.Gen.KernelIdeal.Points
import proofs.«176717_j76312978916098_2_alg».proof.Proof.Gen.KernelIdeal.Frame
import proofs.«176717_j76312978916098_2_alg».proof.Proof.Gen.ReferenceIdeal
import proofs.«176717_j76312978916098_2_alg».proof.Proof.Gen.Pre_finite_inputs
import proofs.«176717_j76312978916098_2_alg».proof.Proof.Gen.KernelIdeal.Value
import proofs.«176717_j76312978916098_2_alg».proof.Proof.Reference
import proofs.«176717_j76312978916098_2_alg».proof.Proof.Blocks
import Idealize.ShloMosaic.Adequacy
import Idealize.ShloMosaic.Init

noncomputable section

namespace Cert.Proof

open Idealize.ShloMosaic Idealize.ShloMosaic.TcCoe Idealize.SL.Sem Cert.Barrel

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs, and no operation of its line writes an argument. -/
theorem frame_referenceIdeal : Cert.frame_ReferenceIdeal := fun m ρ _ =>
  (θ_run Cert.ReferenceIdeal.defs _ _).mono
    (fun _ h c => ⟨(h c Cert.ReferenceIdeal.main_arg0).trans (Reference.arg0_eq m c),
      (h c Cert.ReferenceIdeal.main_arg1).trans (Reference.arg1_eq m c)⟩)
    (Cert.ReferenceIdeal.ValueP.run_line (F := Ideal) m ρ)

/-- The idealization rewrote no operation. -/
theorem preserves : Cert.preserves_Kernel_KernelIdeal := trivial

/-- From memories that agree on the arguments both programs end with the shifted array and the sticky column of the
    arguments: the kernel by its blocks, the reference operation by operation. -/
theorem algebraic : Cert.algebraic_KernelIdeal_ReferenceIdeal := by
  intro m ρ m' ρ' _ hagree
  refine ⟨fun c => shifted (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => sticky (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Blocks.run m ρ, ?_⟩
  refine (θ_run Cert.ReferenceIdeal.defs _ _).mono
    (fun _ h c => ⟨?_, ?_, (h c Cert.ReferenceIdeal.main_arg0).trans (Reference.arg0_eq m' c),
      (h c Cert.ReferenceIdeal.main_arg1).trans (Reference.arg1_eq m' c)⟩)
    (Cert.ReferenceIdeal.ValueP.run_line (F := Ideal) m' ρ')
  · rw [h c Cert.ReferenceIdeal.main_v97, Reference.result_shifted m' c, (hagree c).1, (hagree c).2]
  · rw [h c Cert.ReferenceIdeal.main_v87, Reference.result_sticky m' c, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
